-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S128x256 : Shape := ⟨2, ![128, 256]⟩
abbrev S256 : Shape := ⟨1, ![256]⟩
abbrev S256x256 : Shape := ⟨2, ![256, 256]⟩
abbrev S256x349 : Shape := ⟨2, ![256, 349]⟩
abbrev S349 : Shape := ⟨1, ![349]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x349 : S_.BroadcastsInDim S256x349 (![] : Fin 0 → Fin S256x349.rank)
  reducesTo_S256x349_S_d0_1 : S256x349.ReducesTo [0, 1] S_
  bcast_S_S349 : S_.BroadcastsInDim S349 (![] : Fin 0 → Fin S349.rank)
  reducesTo_S349_S_d0 : S349.ReducesTo [0] S_

variable [Facts]

def fn_part2 {F : FTy → Type} [FloatOps F] (main_arg8 : FVec F S256x349 .f32) (main_arg9 : FVec F S349 .f32) (main_v33 : IVec S_ 1) : IVec S_ 1 :=
  let main_v34 : FVec F S256x349 .f32 := Host.absf main_arg8
  let main_cst_12 : FVec F S_ .f32 := constant S_ .f32 0x7F800000#32
  let main_v35 : FVec F S256x349 .f32 := broadcastInDim S256x349 ![] bcast_S_S256x349 main_cst_12
  let main_v36 : IVec S256x349 1 := cmpf .olt main_v34 main_v35
  let main_c_13 : IVec S_ 1 := constantI S_ 1 1#1
  let main_v37 : IVec S_ 1 := (fun x v => Host.reduce IntOp.andi x v reducesTo_S256x349_S_d0_1 h_S_) main_v36 main_c_13
  let main_v38 : IVec S_ 1 := andi main_v33 main_v37
  let main_v39 : FVec F S349 .f32 := Host.absf main_arg9
  let main_cst_14 : FVec F S_ .f32 := constant S_ .f32 0x7F800000#32
  let main_v40 : FVec F S349 .f32 := broadcastInDim S349 ![] bcast_S_S349 main_cst_14
  let main_v41 : IVec S349 1 := cmpf .olt main_v39 main_v40
  let main_c_15 : IVec S_ 1 := constantI S_ 1 1#1
  let main_v42 : IVec S_ 1 := (fun x v => Host.reduce IntOp.andi x v reducesTo_S349_S_d0 h_S_) main_v41 main_c_15
  let main_v43 : IVec S_ 1 := andi main_v38 main_v42
  main_v43

def fn_part1 {F : FTy → Type} [FloatOps F] (main_arg5 : FVec F S256x256 .f32) (main_arg6 : FVec F S256x256 .f32) (main_arg7 : FVec F S256 .f32) (main_arg8 : FVec F S256x349 .f32) (main_arg9 : FVec F S349 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x500000 32) (main_arg2 : FVec F S128x256 .f32) (main_arg3 : FVec F S128x256 .f32) (main_arg4 : FVec F S256 .f32) (main_arg5 : FVec F S256x256 .f32) (main_arg6 : FVec F S256x256 .f32) (main_arg7 : FVec F S256 .f32) (main_arg8 : FVec F S256x349 .f32) (main_arg9 : FVec F S349 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x500000 : Shape := ⟨2, ![2, 500000]⟩
abbrev S128x256 : Shape := ⟨2, ![128, 256]⟩
abbrev S256 : Shape := ⟨1, ![256]⟩
abbrev S256x256 : Shape := ⟨2, ![256, 256]⟩
abbrev S256x349 : Shape := ⟨2, ![256, 349]⟩
abbrev S349 : Shape := ⟨1, ![349]⟩
abbrev S1x500000 : Shape := ⟨2, ![1, 500000]⟩
abbrev S500000 : Shape := ⟨1, ![500000]⟩
abbrev S_ : Shape := ⟨0, ![]⟩
abbrev S100000 : Shape := ⟨1, ![100000]⟩
abbrev S500000x1 : Shape := ⟨2, ![500000, 1]⟩
abbrev S100000x1 : Shape := ⟨2, ![100000, 1]⟩
abbrev S500000x128 : Shape := ⟨2, ![500000, 128]⟩
abbrev S100000x256 : Shape := ⟨2, ![100000, 256]⟩
abbrev S2000x128 : Shape := ⟨2, ![2000, 128]⟩
abbrev S2000x1 : Shape := ⟨2, ![2000, 1]⟩
abbrev S2000x256 : Shape := ⟨2, ![2000, 256]⟩
abbrev S1x256 : Shape := ⟨2, ![1, 256]⟩
abbrev S500000x256 : Shape := ⟨2, ![500000, 256]⟩
abbrev S100000x349 : Shape := ⟨2, ![100000, 349]⟩
abbrev S2000x349 : Shape := ⟨2, ![2000, 349]⟩
abbrev S1x349 : Shape := ⟨2, ![1, 349]⟩

abbrev nBuf : Space → Nat
  | .hbm => 55
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x349, .f32⟩
  | .hbm, ⟨9, _⟩ => ⟨S349, .f32⟩
  | .hbm, ⟨10, _⟩ => ⟨S1x500000, .i32⟩
  | .hbm, ⟨11, _⟩ => ⟨S500000, .i32⟩
  | .hbm, ⟨12, _⟩ => ⟨S1x500000, .i32⟩
  | .hbm, ⟨13, _⟩ => ⟨S500000, .i32⟩
  | .hbm, ⟨14, _⟩ => ⟨S_, .f32⟩
  | .hbm, ⟨15, _⟩ => ⟨S500000, .f32⟩
  | .hbm, ⟨16, _⟩ => ⟨S_, .f32⟩
  | .hbm, ⟨17, _⟩ => ⟨S100000, .f32⟩
  | .hbm, ⟨18, _⟩ => ⟨S500000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S500000, .i32⟩
  | .hbm, ⟨29, _⟩ => ⟨S500000, .i1⟩
  | .hbm, ⟨30, _⟩ => ⟨S_, .i32⟩
  | .hbm, ⟨31, _⟩ => ⟨S500000, .i32⟩
  | .hbm, ⟨32, _⟩ => ⟨S500000, .i32⟩
  | .hbm, ⟨33, _⟩ => ⟨S500000, .i32⟩
  | .hbm, ⟨34, _⟩ => ⟨S500000x1, .i32⟩
  | .hbm, ⟨35, _⟩ => ⟨S500000x128, .f32⟩
  | .hbm, ⟨36, _⟩ => ⟨S_, .f32⟩
  | .hbm, ⟨37, _⟩ => ⟨S100000x128, .f32⟩
  | .hbm, ⟨38, _⟩ => ⟨S500000x1, .i32⟩
  | .hbm, ⟨39, _⟩ => ⟨S100000x128, .f32⟩
  | .hbm, ⟨40, _⟩ => ⟨S100000x256, .f32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S500000x256, .f32⟩
  | .hbm, ⟨50, _⟩ => ⟨S_, .f32⟩
  | .hbm, ⟨51, _⟩ => ⟨S100000x256, .f32⟩
  | .hbm, ⟨52, _⟩ => ⟨S500000x1, .i32⟩
  | .hbm, ⟨53, _⟩ => ⟨S100000x256, .f32⟩
  | .hbm, ⟨54, _⟩ => ⟨S100000x349, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .f32⟩
  | .local _ .vmem, ⟨7, _⟩ => ⟨S128x256, .f32⟩
  | .local _ .vmem, ⟨8, _⟩ => ⟨S256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x1, .f32⟩
  | .local _ .vmem, ⟨16, _⟩ => ⟨S2000x1, .f32⟩
  | .local _ .vmem, ⟨17, _⟩ => ⟨S256x256, .f32⟩
  | .local _ .vmem, ⟨18, _⟩ => ⟨S256x256, .f32⟩
  | .local _ .vmem, ⟨19, _⟩ => ⟨S256, .f32⟩
  | .local _ .vmem, ⟨20, _⟩ => ⟨S256x349, .f32⟩
  | .local _ .vmem, ⟨21, _⟩ => ⟨S349, .f32⟩
  | .local _ .vmem, ⟨22, _⟩ => ⟨S2000x349, .f32⟩
  | .local _ .vmem, ⟨23, _⟩ => ⟨S2000x349, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x349 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S349 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x349 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  shapeCasts_S100000_S100000x1 : S100000.ShapeCasts S100000x1
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S100000x256 : S_.BroadcastsInDim S100000x256 (![] : Fin 0 → Fin S100000x256.rank)
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  inb_S256x349_S256x349_0_0 : ∀ a, (![0, 0] : Fin 2 → Nat) a + S256x349.size a ≤ S256x349.size a
  h_S256x349 : 0 < S256x349.numel
  inb_S349_S349_0 : ∀ a, (![0] : Fin 1 → Nat) a + S349.size a ≤ S349.size a
  h_S349 : 0 < S349.numel
  shapeCasts_S349_S1x349 : S349.ShapeCasts S1x349
  broadcasts_S1x349_S2000x349 : S1x349.Broadcasts S2000x349
  inb_S2000x349_S2000x349_0_0 : ∀ a, (![0, 0] : Fin 2 → Nat) a + S2000x349.size a ≤ S2000x349.size a
  h_S2000x349 : 0 < S2000x349.numel
  scatter_S100000_S500000x1_S500000_n_0_0_1_wf : ScatterDims.WF S100000 S500000x1 S500000 [] [0] [0] 1
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S2000x128_S128x256_S2000x256_1_0_0_1_n_n_wf : DotDims.WF S2000x128 S128x256 S2000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S2000x256_S256x256_S2000x256_1_0_0_1_n_n_wf : DotDims.WF S2000x256 S256x256 S2000x256 [1] [0] [0] [1] [] []
  dot_S2000x256_S256x349_S2000x349_1_0_0_1_n_n_wf : DotDims.WF S2000x256 S256x349 S2000x349 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S100000x256.size a
  hwx0_6 : ∀ i : grid0.Coords, EltTy.bits .f32 = 32 ∨ (Rect.block (s := S100000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x349.size a ≤ S256x349.size a
  hwx1_6 : ∀ i : grid1.Coords, EltTy.bits .f32 = 32 ∨ (Rect.block (s := S256x349) S256x349.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S349.size a ≤ S349.size a
  hwx1_7 : ∀ i : grid1.Coords, EltTy.bits .f32 = 32 ∨ (Rect.block (s := S349) S349.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x349.size a ≤ S100000x349.size a
  hwx1_8 : ∀ i : grid1.Coords, EltTy.bits .f32 = 32 ∨ (Rect.block (s := S100000x349) S2000x349.size (cc1_transform_8 i) (hinb1_8 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x349_S2000x349_1_0_0_1_n_n : DotDims S2000x256 S256x349 S2000x349 where
  lhsContracting := [1]
  rhsContracting := [0]
  lhsNonContracting := [0]
  rhsNonContracting := [1]
  lhsBatch := []
  rhsBatch := []
  wf := dot_S2000x256_S256x349_S2000x349_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S256x349.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S349.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S2000x349.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S128x256 : Shape := ⟨2, ![128, 256]⟩
abbrev S256 : Shape := ⟨1, ![256]⟩
abbrev S256x256 : Shape := ⟨2, ![256, 256]⟩
abbrev S256x349 : Shape := ⟨2, ![256, 349]⟩
abbrev S349 : Shape := ⟨1, ![349]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S500000x256 : Shape := ⟨2, ![500000, 256]⟩
abbrev S100000x349 : Shape := ⟨2, ![100000, 349]⟩
abbrev S1x349 : Shape := ⟨2, ![1, 349]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x349, .f32⟩
  | .hbm, ⟨9, _⟩ => ⟨S349, .f32⟩
  | .hbm, ⟨10, _⟩ => ⟨S1x500000, .i32⟩
  | .hbm, ⟨11, _⟩ => ⟨S500000, .i32⟩
  | .hbm, ⟨12, _⟩ => ⟨S1x500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x128, .f32⟩
  | .hbm, ⟨23, _⟩ => ⟨S_, .f32⟩
  | .hbm, ⟨24, _⟩ => ⟨S100000x128, .f32⟩
  | .hbm, ⟨25, _⟩ => ⟨S500000x1, .i32⟩
  | .hbm, ⟨26, _⟩ => ⟨S100000x128, .f32⟩
  | .hbm, ⟨27, _⟩ => ⟨S_, .f32⟩
  | .hbm, ⟨28, _⟩ => ⟨S500000, .f32⟩
  | .hbm, ⟨29, _⟩ => ⟨S_, .f32⟩
  | .hbm, ⟨30, _⟩ => ⟨S100000, .f32⟩
  | .hbm, ⟨31, _⟩ => ⟨S500000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x256, .f32⟩
  | .hbm, ⟨40, _⟩ => ⟨S100000x256, .f32⟩
  | .hbm, ⟨41, _⟩ => ⟨S100000x256, .f32⟩
  | .hbm, ⟨42, _⟩ => ⟨S1x256, .f32⟩
  | .hbm, ⟨43, _⟩ => ⟨S100000x256, .f32⟩
  | .hbm, ⟨44, _⟩ => ⟨S100000x256, .f32⟩
  | .hbm, ⟨45, _⟩ => ⟨S_, .f32⟩
  | .hbm, ⟨46, _⟩ => ⟨S100000x256, .f32⟩
  | .hbm, ⟨47, _⟩ => ⟨S100000x256, .f32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000x256, .f32⟩
  | .hbm, ⟨57, _⟩ => ⟨S_, .f32⟩
  | .hbm, ⟨58, _⟩ => ⟨S100000x256, .f32⟩
  | .hbm, ⟨59, _⟩ => ⟨S500000x1, .i32⟩
  | .hbm, ⟨60, _⟩ => ⟨S100000x256, .f32⟩
  | .hbm, ⟨61, _⟩ => ⟨S_, .f32⟩
  | .hbm, ⟨62, _⟩ => ⟨S500000, .f32⟩
  | .hbm, ⟨63, _⟩ => ⟨S_, .f32⟩
  | .hbm, ⟨64, _⟩ => ⟨S100000, .f32⟩
  | .hbm, ⟨65, _⟩ => ⟨S500000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x256, .f32⟩
  | .hbm, ⟨72, _⟩ => ⟨S100000x256, .f32⟩
  | .hbm, ⟨73, _⟩ => ⟨S100000x256, .f32⟩
  | .hbm, ⟨74, _⟩ => ⟨S100000x256, .f32⟩
  | .hbm, ⟨75, _⟩ => ⟨S100000x256, .f32⟩
  | .hbm, ⟨76, _⟩ => ⟨S1x256, .f32⟩
  | .hbm, ⟨77, _⟩ => ⟨S100000x256, .f32⟩
  | .hbm, ⟨78, _⟩ => ⟨S100000x256, .f32⟩
  | .hbm, ⟨79, _⟩ => ⟨S_, .f32⟩
  | .hbm, ⟨80, _⟩ => ⟨S100000x256, .f32⟩
  | .hbm, ⟨81, _⟩ => ⟨S100000x256, .f32⟩
  | .hbm, ⟨82, _⟩ => ⟨S100000x349, .f32⟩
  | .hbm, ⟨83, _⟩ => ⟨S1x349, .f32⟩
  | .hbm, ⟨84, _⟩ => ⟨S100000x349, .f32⟩
  | .hbm, ⟨85, _⟩ => ⟨S100000x349, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S349_S1x349_1 : S349.BroadcastsInDim S1x349 (![1] : Fin 1 → Fin S1x349.rank)
  bcast_S1x349_S100000x349_0_1 : S1x349.BroadcastsInDim S100000x349 (![0, 1] : Fin 2 → Fin S100000x349.rank)
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x256_S100000x256_1_0_0_1_n_n_wf : DotDims.WF S100000x128 S128x256 S100000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S100000x256_S256x256_S100000x256_1_0_0_1_n_n_wf : DotDims.WF S100000x256 S256x256 S100000x256 [1] [0] [0] [1] [] []
  dot_S100000x256_S256x349_S100000x349_1_0_0_1_n_n_wf : DotDims.WF S100000x256 S256x349 S100000x349 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x349_S100000x349_1_0_0_1_n_n : DotDims S100000x256 S256x349 S100000x349 where
  lhsContracting := [1]
  rhsContracting := [0]
  lhsNonContracting := [0]
  rhsNonContracting := [1]
  lhsBatch := []
  rhsBatch := []
  wf := dot_S100000x256_S256x349_S100000x349_1_0_0_1_n_n_wf

class Facts : Prop extends Facts₀ where

variable [Facts]
-- ==== Proof.KernelRun.lean ====
/-
  The idealized kernel's whole run, with every buffer named at the end.

  The program is four stretches: host operations, the first kernel over its grid, host operations, the second kernel
  over its grid. The contents of the TensorCore's buffers at each boundary are a fold through the stretches; the last
  one is `W4`. Every weakly fair execution terminates without a fault in a state whose unscoped buffers hold `W4`
  (`run_all`); in particular the result buffer holds `W4` at the result, and the arguments what they were launched with
  (`run_result`).
-/
import proofs.«158860_j54863912239768_2_alg».proof.Proof.Gen.KernelIdeal.Frame

set_option maxRecDepth 16384

noncomputable section

namespace Cert.Sage.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run, read at the result and at the arguments. -/
theorem run_result : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)
    (run_all m ρ)

end Cert.Sage.KernelRun

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.SageSpec.lean ====
/-
  One mean-aggregation layer of a graph network, and the classification head, on the extended reals.

  A layer takes the per-node sums of neighbour features `a` (an `[M, K]` array), the nodes' own features `h`, a column
  `d` of per-node scales (`[M, 1]`: the reciprocal of the clamped in-degree), two `[K, N]` weight matrices and one
  bias row. Row `p` of the result is

      max ( (a p · d p) · Wn  +  h p · Ws  +  b ,  z )

  where `a p · d p` scales the whole row by the node's entry of `d` (`scaleRows`), the two products are plain matrix
  products (`rowsTimes`) and `z` is the floor of the rectifier. The head is one more product plus a bias row.

  Every entry of a layer's result depends on its own ROW of `a`, `h` and `d` only. So the layer of a block of rows is
  that block of rows of the layer (`layer_rows`), and likewise for the head (`head_rows`): this is what lets a result
  computed block of rows by block of rows be read as one function of the whole arrays.

  The one law of arithmetic used: for `D ≠ 0`, `x · (1 / D) = x / D` on the extended reals, infinities included
  (`mul_div_one`), and a degree clamped below by one is never zero (`max_one_ne_zero`).
-/
import proofs.«158860_j54863912239768_2_alg».proof.Proof.LibPlainDot
import proofs.«158860_j54863912239768_2_alg».proof.Proof.LibRowBias
import Idealize.ShloMosaic.PureOps.Ideal
import Idealize.ShloMosaic.Lib.ValueIdx

noncomputable section

namespace Cert.Sage

open Idealize.ShloMosaic Idealize.ShloMosaic.ValueIdx Cert.LibPlainDot Cert.LibRowBias

/-- Row `p` of `a` times the entry `(p, 0)` of the column `d`. -/
def scaleRows {M K : ℕ} (a : (⟨2, ![M, K]⟩ : Shape).Idx → EReal) (d : (⟨2, ![M, 1]⟩ : Shape).Idx → EReal) :
    (⟨2, ![M, K]⟩ : Shape).Idx → EReal :=
  fun i => a i * d (ix2 (⟨(i 0).val, idx2_lt0 i⟩ : Fin M) (0 : Fin 1))

theorem scaleRows_apply {M K : ℕ} (a : (⟨2, ![M, K]⟩ : Shape).Idx → EReal) (d : (⟨2, ![M, 1]⟩ : Shape).Idx → EReal)
    (p : Fin M) (k : Fin K) : scaleRows a d (ix2 p k) = a (ix2 p k) * d (ix2 p (0 : Fin 1)) := rfl

/-- The sum of the two products of a layer, before the bias: `(a scaled by d) · wn + h · ws`. -/
def mix {M K N : ℕ} (a h : (⟨2, ![M, K]⟩ : Shape).Idx → EReal) (d : (⟨2, ![M, 1]⟩ : Shape).Idx → EReal)
    (wn ws : (⟨2, ![K, N]⟩ : Shape).Idx → EReal) : (⟨2, ![M, N]⟩ : Shape).Idx → EReal :=
  fun j => rowsTimes (scaleRows a d) wn j + rowsTimes h ws j

/-- One layer: the two products, the bias row added to every row, floored at `z`. -/
def layer {M K N : ℕ} (z : EReal) (a h : (⟨2, ![M, K]⟩ : Shape).Idx → EReal) (d : (⟨2, ![M, 1]⟩ : Shape).Idx → EReal)
    (wn ws : (⟨2, ![K, N]⟩ : Shape).Idx → EReal) (b : (⟨2, ![1, N]⟩ : Shape).Idx → EReal) :
    (⟨2, ![M, N]⟩ : Shape).Idx → EReal :=
  rowBiasFloor z (mix a h d wn ws) b

/-- The head: one product and a bias row. -/
def head {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  rowBias (rowsTimes x w) b

/-! ## Blocks of rows -/

/-- Rows `o, …, o + R - 1` of the scaled array are the scaled rows of those blocks of `a` and `d`. -/
theorem scaleRows_rows {M R K : ℕ} (o : ℕ) (a : (⟨2, ![M, K]⟩ : Shape).Idx → EReal) (ab : (⟨2, ![R, K]⟩ : Shape).Idx → EReal)
    (d : (⟨2, ![M, 1]⟩ : Shape).Idx → EReal) (db : (⟨2, ![R, 1]⟩ : Shape).Idx → EReal)
    (ha : ∀ (y : Fin R) (k : Fin K) (h : o + y.val < M), ab (ix2 y k) = a (ix2 (⟨o + y.val, h⟩ : Fin M) k))
    (hd : ∀ (y : Fin R) (u : Fin 1) (h : o + y.val < M), db (ix2 y u) = d (ix2 (⟨o + y.val, h⟩ : Fin M) u))
    (y : Fin R) (k : Fin K) (h : o + y.val < M) :
    scaleRows ab db (ix2 y k) = scaleRows a d (ix2 (⟨o + y.val, h⟩ : Fin M) k) := by
  rw [scaleRows_apply, scaleRows_apply, ha y k h, hd y 0 h]

/-- The same for the sum of the two products. -/
theorem mix_rows {M R K N : ℕ} (o : ℕ) (a h : (⟨2, ![M, K]⟩ : Shape).Idx → EReal) (ab hb : (⟨2, ![R, K]⟩ : Shape).Idx → EReal)
    (d : (⟨2, ![M, 1]⟩ : Shape).Idx → EReal) (db : (⟨2, ![R, 1]⟩ : Shape).Idx → EReal)
    (wn ws : (⟨2, ![K, N]⟩ : Shape).Idx → EReal)
    (ha : ∀ (y : Fin R) (k : Fin K) (h : o + y.val < M), ab (ix2 y k) = a (ix2 (⟨o + y.val, h⟩ : Fin M) k))
    (hh : ∀ (y : Fin R) (k : Fin K) (hM : o + y.val < M), hb (ix2 y k) = h (ix2 (⟨o + y.val, hM⟩ : Fin M) k))
    (hd : ∀ (y : Fin R) (u : Fin 1) (h : o + y.val < M), db (ix2 y u) = d (ix2 (⟨o + y.val, h⟩ : Fin M) u))
    (p : Fin R) (q : Fin N) (hp : o + p.val < M) :
    mix ab hb db wn ws (ix2 p q) = mix a h d wn ws (ix2 (⟨o + p.val, hp⟩ : Fin M) q) := by
  show rowsTimes (scaleRows ab db) wn (ix2 p q) + rowsTimes hb ws (ix2 p q)
    = rowsTimes (scaleRows a d) wn (ix2 (⟨o + p.val, hp⟩ : Fin M) q) + rowsTimes h ws (ix2 (⟨o + p.val, hp⟩ : Fin M) q)
  rw [rowsTimes_rows o (scaleRows a d) (scaleRows ab db) wn (scaleRows_rows o a ab d db ha hd) (ix2 p q)
      (ix2 (⟨o + p.val, hp⟩ : Fin M) q) rfl rfl,
    rowsTimes_rows o h hb ws hh (ix2 p q) (ix2 (⟨o + p.val, hp⟩ : Fin M) q) rfl rfl]

/-- A block of rows of a layer is the layer of that block of rows. -/
theorem layer_rows {M R K N : ℕ} (z : EReal) (o : ℕ) (a h : (⟨2, ![M, K]⟩ : Shape).Idx → EReal)
    (ab hb : (⟨2, ![R, K]⟩ : Shape).Idx → EReal)
    (d : (⟨2, ![M, 1]⟩ : Shape).Idx → EReal) (db : (⟨2, ![R, 1]⟩ : Shape).Idx → EReal)
    (wn ws : (⟨2, ![K, N]⟩ : Shape).Idx → EReal) (b : (⟨2, ![1, N]⟩ : Shape).Idx → EReal)
    (ha : ∀ (y : Fin R) (k : Fin K) (h : o + y.val < M), ab (ix2 y k) = a (ix2 (⟨o + y.val, h⟩ : Fin M) k))
    (hh : ∀ (y : Fin R) (k : Fin K) (hM : o + y.val < M), hb (ix2 y k) = h (ix2 (⟨o + y.val, hM⟩ : Fin M) k))
    (hd : ∀ (y : Fin R) (u : Fin 1) (h : o + y.val < M), db (ix2 y u) = d (ix2 (⟨o + y.val, h⟩ : Fin M) u))
    (y : (⟨2, ![R, N]⟩ : Shape).Idx) (i : (⟨2, ![M, N]⟩ : Shape).Idx) (h0 : (i 0).val = o + (y 0).val) (h1 : (i 1).val = (y 1).val) :
    layer z ab hb db wn ws b y = layer z a h d wn ws b i :=
  rowBiasFloor_rows z o (mix a h d wn ws) (mix ab hb db wn ws) b (mix_rows o a h ab hb d db wn ws ha hh hd) y i h0 h1

/-- A block of rows of the head is the head of that block of rows. -/
theorem head_rows {M R K N : ℕ} (o : ℕ) (x : (⟨2, ![M, K]⟩ : Shape).Idx → EReal) (xb : (⟨2, ![R, K]⟩ : Shape).Idx → EReal)
    (w : (⟨2, ![K, N]⟩ : Shape).Idx → EReal) (b : (⟨2, ![1, N]⟩ : Shape).Idx → EReal)
    (hx : ∀ (y : Fin R) (k : Fin K) (h : o + y.val < M), xb (ix2 y k) = x (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    head xb w b y = head x w b i :=
  rowBias_rows o (rowsTimes x w) (rowsTimes xb w) b
    (fun p q hp => rowsTimes_rows o x xb w hx (ix2 p q) (ix2 (⟨o + p.val, hp⟩ : Fin M) q) rfl rfl) y i h0 h1

/-! ## The scale: a reciprocal against a quotient -/

/-- Off zero a quotient is the product with the reciprocal, and the reciprocal is `1 / D`: at the infinities too. -/
theorem mul_div_one (x D : EReal) (hD : D ≠ 0) : x * Ideal.div 1 D = Ideal.div x D := by
  unfold Ideal.div
  rw [if_neg hD, if_neg hD, one_mul]

/-- A value clamped below by one is not zero. -/
theorem max_one_ne_zero (x : EReal) : max x 1 ≠ 0 :=
  ne_of_gt (lt_of_lt_of_le zero_lt_one (le_max_right x 1))

end Cert.Sage

end
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.SagePayload.lean ====
/-
  The two kernel bodies, as functions of the blocks they load, are a layer, and the head of a layer.

  In registers a body multiplies the block of neighbour sums by the block of the scale column broadcast along the
  features (`scaleRows`), takes the two matrix-unit products into a zero accumulator (`rowsTimes`: a change of float
  format is the identity on the extended reals), adds the bias vector reshaped to one row and broadcast over the rows,
  and takes the maximum with the splat of zero's word (`rowBiasFloor`). The second body then multiplies by the head's
  weights and adds the head's bias row (`head`).
-/
import proofs.«158860_j54863912239768_2_alg».proof.Proof.Gen.KernelIdeal.Skeleton
import proofs.«158860_j54863912239768_2_alg».proof.Proof.SageSpec
import proofs.«158860_j54863912239768_2_alg».proof.Proof.LibColumns
import Idealize.ShloMosaic.Lib.Pipeline.Value
import Idealize.ShloMosaic.Lib.ValueLayout

noncomputable section

namespace Cert.Sage.Payload

open Idealize.ShloMosaic Idealize.ShloMosaic.ValueIdx Cert.LibPlainDot Cert.LibRowBias Cert.Columns Cert.Sage
open Cert.KernelIdeal Cert.KernelIdeal.Gen

theorem exists_ix2 {M N : ℕ} (i : (⟨2, ![M, N]⟩ : Shape).Idx) : ∃ (p : Fin M) (q : Fin N), i = ix2 p q :=
  ⟨⟨(i 0).val, idx2_lt0 i⟩, ⟨(i 1).val, idx2_lt1 i⟩, by funext d; match d with | ⟨0, _⟩ => rfl | ⟨1, _⟩ => rfl⟩

/-- A block times a column broadcast along its rows is the block with every row scaled. -/
theorem scale_eq {M K : ℕ} (a : FVec Ideal ⟨2, ![M, K]⟩ .f32) (d : FVec Ideal ⟨2, ![M, 1]⟩ .f32)
    (ha : (⟨2, ![M, K]⟩ : Shape).ShapeCasts ⟨2, ![M, K]⟩) (hd : (⟨2, ![M, 1]⟩ : Shape).ShapeCasts ⟨2, ![M, 1]⟩)
    (hb : (⟨2, ![M, 1]⟩ : Shape).Broadcasts ⟨2, ![M, K]⟩) :
    mulf (shapeCast ⟨2, ![M, K]⟩ a ha) (broadcastTo ⟨2, ![M, K]⟩ (shapeCast ⟨2, ![M, 1]⟩ d hd) hb) = scaleRows a d := by
  rw [shapeCast_self, shapeCast_self]
  funext i
  obtain ⟨p, q, rfl⟩ := exists_ix2 i
  rw [scaleRows_apply, mulf_apply, broadcastTo_a1_ab_apply]

/-- A block plus one row broadcast over its rows. -/
theorem bias_eq {M N : ℕ} (x : FVec Ideal ⟨2, ![M, N]⟩ .f32) (r : FVec Ideal ⟨2, ![1, N]⟩ .f32)
    (hb : (⟨2, ![1, N]⟩ : Shape).Broadcasts ⟨2, ![M, N]⟩) :
    addf x (broadcastTo ⟨2, ![M, N]⟩ r hb) = rowBias x r := by
  funext i
  obtain ⟨p, q, rfl⟩ := exists_ix2 i
  rw [rowBias_apply, addf_apply, broadcastTo_1b_ab_apply]

/-- The same, then the maximum with the splat of a word. -/
theorem biasFloor_eq {M N : ℕ} (w : BitVec 32) (x : FVec Ideal ⟨2, ![M, N]⟩ .f32) (r : FVec Ideal ⟨2, ![1, N]⟩ .f32)
    (hb : (⟨2, ![1, N]⟩ : Shape).Broadcasts ⟨2, ![M, N]⟩) :
    maximumf (addf x (broadcastTo ⟨2, ![M, N]⟩ r hb)) (broadcast ⟨2, ![M, N]⟩ (Scalar.ofBits (F := Ideal) .f32 w))
      = rowBiasFloor (Ideal.ofBits .f32 w) x r := by
  rw [bias_eq]
  rfl

/-- The first kernel's stored value is the layer of its loaded blocks. -/
theorem pay0_eq (v0 : FVec Ideal S2000x128 .f32) (v2 : FVec Ideal S2000x1 .f32) (v7 : FVec Ideal S2000x128 .f32)
    (v9 v11 : FVec Ideal S128x256 .f32) (v16 : FVec Ideal S256 .f32) :
    k0_pay1 (F := Ideal) v0 v2 v7 v9 v11 v16
      = layer (M := 2000) (K := 128) (N := 256) (Ideal.ofBits .f32 0x00000000#32) v0 v7 v2 v9 v11
          (shapeCast S1x256 v16 Facts₀.shapeCasts_S256_S1x256) := by
  have hd : dot_S2000x128_S128x256_S2000x256_1_0_0_1_n_n = DotDims.plain 2000 128 256 := rfl
  unfold k0_pay1
  show maximumf (addf (addf
        (FloatOps.matmul dot_S2000x128_S128x256_S2000x256_1_0_0_1_n_n none
          (mulf (shapeCast S2000x128 v0 Facts₀.shapeCasts_S2000x128_S2000x128)
            (broadcastTo S2000x128 (shapeCast S2000x1 v2 Facts₀.shapeCasts_S2000x1_S2000x1) Facts₀.broadcasts_S2000x1_S2000x128))
          v9 (constant S2000x256 .f32 0x00000000#32))
        (FloatOps.matmul dot_S2000x128_S128x256_S2000x256_1_0_0_1_n_n none v7 v11 (constant S2000x256 .f32 0x00000000#32)))
        (broadcastTo S2000x256 (shapeCast S1x256 v16 Facts₀.shapeCasts_S256_S1x256) Facts₀.broadcasts_S1x256_S2000x256))
      (broadcast S2000x256 (Scalar.ofBits (F := Ideal) .f32 0x00000000#32)) = _
  rw [hd, scale_eq (M := 2000) (K := 128) v0 v2, matmul_zero_plain, matmul_zero_plain, biasFloor_eq (M := 2000) (N := 256)]
  rfl

set_option maxHeartbeats 1000000 in
/-- The second kernel's stored value is the head of the layer of its loaded blocks. -/
theorem pay1_eq (v0 : FVec Ideal S2000x256 .f32) (v2 : FVec Ideal S2000x1 .f32) (v7 : FVec Ideal S2000x256 .f32)
    (v10 v12 : FVec Ideal S256x256 .f32) (v17 : FVec Ideal S256 .f32) (v24 : FVec Ideal S256x349 .f32) (v27 : FVec Ideal S349 .f32) :
    k1_pay1 (F := Ideal) v0 v2 v7 v10 v12 v17 v24 v27
      = head (M := 2000) (K := 256) (N := 349)
          (layer (M := 2000) (K := 256) (N := 256) (Ideal.ofBits .f32 0x00000000#32) v0 v7 v2 v10 v12
            (shapeCast S1x256 v17 Facts₀.shapeCasts_S256_S1x256))
          v24 (shapeCast S1x349 v27 Facts₀.shapeCasts_S349_S1x349) := by
  have hd : dot_S2000x256_S256x256_S2000x256_1_0_0_1_n_n = DotDims.plain 2000 256 256 := rfl
  have hd' : dot_S2000x256_S256x349_S2000x349_1_0_0_1_n_n = DotDims.plain 2000 256 349 := rfl
  unfold k1_pay1
  show addf
      (FloatOps.matmul dot_S2000x256_S256x349_S2000x349_1_0_0_1_n_n none
        (maximumf (addf (addf
            (FloatOps.matmul dot_S2000x256_S256x256_S2000x256_1_0_0_1_n_n none
              (mulf (shapeCast S2000x256 v0 Facts₀.shapeCasts_S2000x256_S2000x256)
                (broadcastTo S2000x256 (shapeCast S2000x1 v2 Facts₀.shapeCasts_S2000x1_S2000x1) Facts₀.broadcasts_S2000x1_S2000x256))
              v10 (constant S2000x256 .f32 0x00000000#32))
            (FloatOps.matmul dot_S2000x256_S256x256_S2000x256_1_0_0_1_n_n none
              (shapeCast S2000x256 v7 Facts₀.shapeCasts_S2000x256_S2000x256) v12 (constant S2000x256 .f32 0x00000000#32)))
            (broadcastTo S2000x256 (shapeCast S1x256 v17 Facts₀.shapeCasts_S256_S1x256) Facts₀.broadcasts_S1x256_S2000x256))
          (broadcast S2000x256 (Scalar.ofBits (F := Ideal) .f32 0x00000000#32)))
        v24 (constant S2000x349 .f32 0x00000000#32))
      (broadcastTo S2000x349 (shapeCast S1x349 v27 Facts₀.shapeCasts_S349_S1x349) Facts₀.broadcasts_S1x349_S2000x349) = _
  rw [hd, hd', scale_eq (M := 2000) (K := 256) v0 v2, shapeCast_self v7, matmul_zero_plain, matmul_zero_plain,
    biasFloor_eq (M := 2000) (N := 256), matmul_zero_plain, bias_eq (M := 2000) (N := 349)]
  rfl

end Cert.Sage.Payload

end
-- ==== Proof.KernelValue0.lean ====
/-
  What the first kernel leaves in its result array: one layer of the arrays the region finds.

  The grid has fifty points; point `t` works on rows `2000 t … 2000 t + 1999`. Its blocks of the neighbour sums, of
  the nodes' own features and of the scale column are those rows of the three arrays; the two weight matrices and the
  bias vector are read whole at every point. The body stores the layer of its blocks, which is that block of rows of
  the layer of the whole arrays (`layer_rows`), so each write-back is a block of ONE function of the arrays
  (`flushed0`). The fifty blocks tile the rows, so the array ends holding that function (`final0`).
-/
import proofs.«158860_j54863912239768_2_alg».proof.Proof.Gen.KernelIdeal.Frame
import proofs.«158860_j54863912239768_2_alg».proof.Proof.SageSpec
import proofs.«158860_j54863912239768_2_alg».proof.Proof.SagePayload
import Idealize.ShloMosaic.Lib.Pipeline.Value

set_option maxRecDepth 16384

noncomputable section

namespace Cert.Sage.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Sage Cert.Sage.Payload

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The layer of the arrays as the region finds them. -/
def G0 (c : Dev nD) : S100000x256.Idx → EReal :=
  layer (M := 100000) (K := 128) (N := 256) (Ideal.ofBits .f32 0x00000000#32)
    (V c main_v22 : S100000x128.Idx → EReal) (V c main_arg0 : S100000x128.Idx → EReal) (V c main_v12 : S100000x1.Idx → EReal)
    (V c main_arg3 : S128x256.Idx → EReal) (V c main_arg2 : S128x256.Idx → EReal)
    (shapeCast S1x256 (V c main_arg4 : S256.Idx → EReal) Facts₀.shapeCasts_S256_S1x256)

/-- The index maps over the grid: the three row-blocked inputs and the output follow the point, the weights and
    the bias stay at block zero. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The weights and the bias are read whole at every point. -/
theorem whole3 (c : Dev nD) (t : Fin cfg0.N) : iblk0 V c 3 t = (V c main_arg3 : S128x256.Idx → EReal) := by
  obtain ⟨-, -, -, -, -, -, e0, e1, -⟩ := idx0 t
  funext y
  show (V c main_arg3 : S128x256.Idx → EReal) (((cfg0.win 3).blk t).view.emb y) = V c main_arg3 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega

theorem whole4 (c : Dev nD) (t : Fin cfg0.N) : iblk0 V c 4 t = (V c main_arg2 : S128x256.Idx → EReal) := by
  obtain ⟨-, -, -, -, -, -, -, -, e0, e1, -⟩ := idx0 t
  funext y
  show (V c main_arg2 : S128x256.Idx → EReal) (((cfg0.win 4).blk t).view.emb y) = V c main_arg2 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 256 + 1 * (y 1).val = (y 1).val; omega

theorem whole5 (c : Dev nD) (t : Fin cfg0.N) : iblk0 V c 5 t = (V c main_arg4 : S256.Idx → EReal) := by
  obtain ⟨-, -, -, -, -, -, -, -, -, -, e0, -⟩ := idx0 t
  funext y
  show (V c main_arg4 : S256.Idx → EReal) (((cfg0.win 5).blk t).view.emb y) = V c main_arg4 y
  refine congrArg _ (funext fun a => Fin.ext ?_)
  match a with
  | ⟨0, _⟩ => show win0_5.index t (0 : Fin 1) * 256 + 1 * (y 0).val = (y 0).val; omega

/-- The three row-blocked inputs at point `t` are rows `2000 t …` of their arrays. -/
theorem rows0 (c : Dev nD) (t : Fin cfg0.N) (y : Fin 2000) (k : Fin 128) (h : t.val * 2000 + y.val < 100000) :
    (iblk0 V c 0 t : S2000x128.Idx → EReal) (ix2 y k)
      = (V c main_v22 : S100000x128.Idx → EReal) (ix2 (⟨t.val * 2000 + y.val, h⟩ : Fin 100000) k) := by
  obtain ⟨e0, e1, -⟩ := idx0 t
  show (V c main_v22 : S100000x128.Idx → EReal) (((cfg0.win 0).blk t).view.emb (ix2 y k)) = _
  refine congrArg _ (funext fun a => Fin.ext ?_)
  match a with
  | ⟨0, _⟩ => show win0_0.index t (0 : Fin 2) * 2000 + 1 * y.val = t.val * 2000 + y.val; omega
  | ⟨1, _⟩ => show win0_0.index t (1 : Fin 2) * 128 + 1 * k.val = k.val; omega

theorem rows1 (c : Dev nD) (t : Fin cfg0.N) (y : Fin 2000) (k : Fin 128) (h : t.val * 2000 + y.val < 100000) :
    (iblk0 V c 1 t : S2000x128.Idx → EReal) (ix2 y k)
      = (V c main_arg0 : S100000x128.Idx → EReal) (ix2 (⟨t.val * 2000 + y.val, h⟩ : Fin 100000) k) := by
  obtain ⟨-, -, e0, e1, -⟩ := idx0 t
  show (V c main_arg0 : S100000x128.Idx → EReal) (((cfg0.win 1).blk t).view.emb (ix2 y k)) = _
  refine congrArg _ (funext fun a => Fin.ext ?_)
  match a with
  | ⟨0, _⟩ => show win0_1.index t (0 : Fin 2) * 2000 + 1 * y.val = t.val * 2000 + y.val; omega
  | ⟨1, _⟩ => show win0_1.index t (1 : Fin 2) * 128 + 1 * k.val = k.val; omega

theorem rows2 (c : Dev nD) (t : Fin cfg0.N) (y : Fin 2000) (u : Fin 1) (h : t.val * 2000 + y.val < 100000) :
    (iblk0 V c 2 t : S2000x1.Idx → EReal) (ix2 y u)
      = (V c main_v12 : S100000x1.Idx → EReal) (ix2 (⟨t.val * 2000 + y.val, h⟩ : Fin 100000) u) := by
  obtain ⟨-, -, -, -, e0, e1, -⟩ := idx0 t
  show (V c main_v12 : S100000x1.Idx → EReal) (((cfg0.win 2).blk t).view.emb (ix2 y u)) = _
  refine congrArg _ (funext fun a => Fin.ext ?_)
  match a with
  | ⟨0, _⟩ => show win0_2.index t (0 : Fin 2) * 2000 + 1 * y.val = t.val * 2000 + y.val; omega
  | ⟨1, _⟩ => show win0_2.index t (1 : Fin 2) * 1 + 1 * u.val = u.val; omega

/-- What point `t` writes back is block `t` of the layer of the whole arrays. -/
theorem flushed0 (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S2000x1) hz2,
    View.ld_unit_zero (S := S128x256) hz2, View.ld_unit_zero (S := S256) hz1]
  rw [pay0_eq (iblk0 V c 0 t) (iblk0 V c 2 t) (iblk0 V c 1 t) (iblk0 V c 3 t) (iblk0 V c 4 t) (iblk0 V c 5 t),
    whole3 V c t, whole4 V c t, whole5 V c t]
  obtain ⟨-, -, -, -, -, -, -, -, -, -, -, e0, e1⟩ := idx0 t
  funext y
  show layer (M := 2000) (K := 128) (N := 256) (Ideal.ofBits .f32 0x00000000#32) (iblk0 V c 0 t) (iblk0 V c 1 t) (iblk0 V c 2 t)
      (V c main_arg3 : S128x256.Idx → EReal) (V c main_arg2 : S128x256.Idx → EReal)
      (shapeCast S1x256 (V c main_arg4 : S256.Idx → EReal) Facts₀.shapeCasts_S256_S1x256) y
    = G0 V c (((cfg0.win 6).blk t).view.emb y)
  unfold G0
  refine layer_rows (M := 100000) (R := 2000) (K := 128) (N := 256) _ (t.val * 2000) _ _ _ _ _ _ _ _ _
    (rows0 V c t) (rows1 V c t) (rows2 V c t) y _ ?_ ?_
  · show win0_6.index t (0 : Fin 2) * 2000 + 1 * (y 0).val = t.val * 2000 + (y 0).val; omega
  · show win0_6.index t (1 : Fin 2) * 256 + 1 * (y 1).val = (y 1).val; omega

/-- An index is in point `t`'s block iff each coordinate is in the block's range. -/
theorem mem_blk0 (t : Fin cfg0.N) (i : S100000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v23).slice (win0_6.rect t)).set ↔ _
  rw [View.set_slice_whole, Rect.mem_set_unit]
  exact Iff.rfl

/-- Row `r` is in the block of point `r / 2000`. -/
theorem cover0 (i : S100000x256.Idx) :
    ∃ t : Fin cfg0.N, (cfg0.win 6).flush t = true ∧ i ∈ ((cfg0.win 6).blk t).view.set := by
  have hi0 : (i 0).val < 100000 := (i 0).isLt
  have hi1 : (i 1).val < 256 := (i 1).isLt
  have hN : grid0.N = 50 := N_0
  have ht : (i 0).val / 2000 < cfg0.N := by show (i 0).val / 2000 < grid0.N; omega
  obtain ⟨-, -, -, -, -, -, -, -, -, -, -, e0, e1⟩ := idx0 ⟨(i 0).val / 2000, ht⟩
  refine ⟨⟨(i 0).val / 2000, ht⟩, flush0_6 _, ?_⟩
  rw [mem_blk0]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ (1 : Fin 2) * 256 ≤ (i 1).val ∧ (i 1).val < win0_6.index ⟨(i 0).val / 2000, ht⟩ (1 : Fin 2) * 256 + 256
    rw [e1]; omega

/-- The result array of the first kernel ends holding the layer of the arrays the region found. -/
theorem final0 (c : Dev nD) : (dat0 V c).arrAt 6 cfg0.N = G0 V c :=
  (dat0 V c).arrAt_eq_of_cover 6 (G0 V c) (fun t _ => flushed0 V c t) (cover0)

end Cert.Sage.Region0

end
-- ==== Proof.KernelValue1.lean ====
/-
  What the second kernel leaves in its result array: the head of one layer of the arrays the region finds.

  As in the first kernel the grid has fifty points of 2000 rows each. The neighbour sums, the nodes' features and the
  scale column are read by blocks of rows; the layer's two weight matrices and bias vector, and the head's weight
  matrix and bias vector, are read whole at every point. The body stores the head of the layer of its blocks, which is
  that block of rows of the head of the layer of the whole arrays (`layer_rows`, `head_rows`): each write-back is a
  block of ONE function of the arrays (`flushed1`), and the fifty blocks tile the rows (`final1`).
-/
import proofs.«158860_j54863912239768_2_alg».proof.Proof.Gen.KernelIdeal.Frame
import proofs.«158860_j54863912239768_2_alg».proof.Proof.SageSpec
import proofs.«158860_j54863912239768_2_alg».proof.Proof.SagePayload
import Idealize.ShloMosaic.Lib.Pipeline.Value

set_option maxRecDepth 16384

noncomputable section

namespace Cert.Sage.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Sage Cert.Sage.Payload

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The hidden layer of the arrays as the region finds them. -/
def L1 (c : Dev nD) : S100000x256.Idx → EReal :=
  layer (M := 100000) (K := 256) (N := 256) (Ideal.ofBits .f32 0x00000000#32)
    (V c main_v33 : S100000x256.Idx → EReal) (V c main_v23 : S100000x256.Idx → EReal) (V c main_v12 : S100000x1.Idx → EReal)
    (V c main_arg6 : S256x256.Idx → EReal) (V c main_arg5 : S256x256.Idx → EReal)
    (shapeCast S1x256 (V c main_arg7 : S256.Idx → EReal) Facts₀.shapeCasts_S256_S1x256)

/-- The head of that layer. -/
def G1 (c : Dev nD) : S100000x349.Idx → EReal :=
  head (M := 100000) (K := 256) (N := 349) (L1 V c) (V c main_arg8 : S256x349.Idx → EReal)
    (shapeCast S1x349 (V c main_arg9 : S349.Idx → EReal) Facts₀.shapeCasts_S349_S1x349)

/-- The index maps over the grid: the three row-blocked inputs and the output follow the point, the weights and
    the biases stay at block zero. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- The weights and the biases are read whole at every point. -/
theorem whole3 (c : Dev nD) (t : Fin cfg1.N) : iblk1 V c 3 t = (V c main_arg6 : S256x256.Idx → EReal) := by
  obtain ⟨-, -, -, -, -, -, e0, e1, -⟩ := idx1 t
  funext y
  show (V c main_arg6 : S256x256.Idx → EReal) (((cfg1.win 3).blk t).view.emb y) = V c main_arg6 y
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 256 + 1 * (y 1).val = (y 1).val; omega

theorem whole4 (c : Dev nD) (t : Fin cfg1.N) : iblk1 V c 4 t = (V c main_arg5 : S256x256.Idx → EReal) := by
  obtain ⟨-, -, -, -, -, -, -, -, e0, e1, -⟩ := idx1 t
  funext y
  show (V c main_arg5 : S256x256.Idx → EReal) (((cfg1.win 4).blk t).view.emb y) = V c main_arg5 y
  refine congrArg _ (funext fun a => Fin.ext ?_)
  match a with
  | ⟨0, _⟩ => show win1_4.index t (0 : Fin 2) * 256 + 1 * (y 0).val = (y 0).val; omega
  | ⟨1, _⟩ => show win1_4.index t (1 : Fin 2) * 256 + 1 * (y 1).val = (y 1).val; omega

theorem whole5 (c : Dev nD) (t : Fin cfg1.N) : iblk1 V c 5 t = (V c main_arg7 : S256.Idx → EReal) := by
  obtain ⟨-, -, -, -, -, -, -, -, -, -, e0, -⟩ := idx1 t
  funext y
  show (V c main_arg7 : S256.Idx → EReal) (((cfg1.win 5).blk t).view.emb y) = V c main_arg7 y
  refine congrArg _ (funext fun a => Fin.ext ?_)
  match a with
  | ⟨0, _⟩ => show win1_5.index t (0 : Fin 1) * 256 + 1 * (y 0).val = (y 0).val; omega

theorem whole6 (c : Dev nD) (t : Fin cfg1.N) : iblk1 V c 6 t = (V c main_arg8 : S256x349.Idx → EReal) := by
  obtain ⟨-, -, -, -, -, -, -, -, -, -, -, e0, e1, -⟩ := idx1 t
  funext y
  show (V c main_arg8 : S256x349.Idx → EReal) (((cfg1.win 6).blk t).view.emb y) = V c main_arg8 y
  refine congrArg _ (funext fun a => Fin.ext ?_)
  match a with
  | ⟨0, _⟩ => show win1_6.index t (0 : Fin 2) * 256 + 1 * (y 0).val = (y 0).val; omega
  | ⟨1, _⟩ => show win1_6.index t (1 : Fin 2) * 349 + 1 * (y 1).val = (y 1).val; omega

theorem whole7 (c : Dev nD) (t : Fin cfg1.N) : iblk1 V c 7 t = (V c main_arg9 : S349.Idx → EReal) := by
  obtain ⟨-, -, -, -, -, -, -, -, -, -, -, -, -, e0, -⟩ := idx1 t
  funext y
  show (V c main_arg9 : S349.Idx → EReal) (((cfg1.win 7).blk t).view.emb y) = V c main_arg9 y
  refine congrArg _ (funext fun a => Fin.ext ?_)
  match a with
  | ⟨0, _⟩ => show win1_7.index t (0 : Fin 1) * 349 + 1 * (y 0).val = (y 0).val; omega

/-- The three row-blocked inputs at point `t` are rows `2000 t …` of their arrays. -/
theorem rows0 (c : Dev nD) (t : Fin cfg1.N) (y : Fin 2000) (k : Fin 256) (h : t.val * 2000 + y.val < 100000) :
    (iblk1 V c 0 t : S2000x256.Idx → EReal) (ix2 y k)
      = (V c main_v33 : S100000x256.Idx → EReal) (ix2 (⟨t.val * 2000 + y.val, h⟩ : Fin 100000) k) := by
  obtain ⟨e0, e1, -⟩ := idx1 t
  show (V c main_v33 : S100000x256.Idx → EReal) (((cfg1.win 0).blk t).view.emb (ix2 y k)) = _
  refine congrArg _ (funext fun a => Fin.ext ?_)
  match a with
  | ⟨0, _⟩ => show win1_0.index t (0 : Fin 2) * 2000 + 1 * y.val = t.val * 2000 + y.val; omega
  | ⟨1, _⟩ => show win1_0.index t (1 : Fin 2) * 256 + 1 * k.val = k.val; omega

theorem rows1 (c : Dev nD) (t : Fin cfg1.N) (y : Fin 2000) (k : Fin 256) (h : t.val * 2000 + y.val < 100000) :
    (iblk1 V c 1 t : S2000x256.Idx → EReal) (ix2 y k)
      = (V c main_v23 : S100000x256.Idx → EReal) (ix2 (⟨t.val * 2000 + y.val, h⟩ : Fin 100000) k) := by
  obtain ⟨-, -, e0, e1, -⟩ := idx1 t
  show (V c main_v23 : S100000x256.Idx → EReal) (((cfg1.win 1).blk t).view.emb (ix2 y k)) = _
  refine congrArg _ (funext fun a => Fin.ext ?_)
  match a with
  | ⟨0, _⟩ => show win1_1.index t (0 : Fin 2) * 2000 + 1 * y.val = t.val * 2000 + y.val; omega
  | ⟨1, _⟩ => show win1_1.index t (1 : Fin 2) * 256 + 1 * k.val = k.val; omega

theorem rows2 (c : Dev nD) (t : Fin cfg1.N) (y : Fin 2000) (u : Fin 1) (h : t.val * 2000 + y.val < 100000) :
    (iblk1 V c 2 t : S2000x1.Idx → EReal) (ix2 y u)
      = (V c main_v12 : S100000x1.Idx → EReal) (ix2 (⟨t.val * 2000 + y.val, h⟩ : Fin 100000) u) := by
  obtain ⟨-, -, -, -, e0, e1, -⟩ := idx1 t
  show (V c main_v12 : S100000x1.Idx → EReal) (((cfg1.win 2).blk t).view.emb (ix2 y u)) = _
  refine congrArg _ (funext fun a => Fin.ext ?_)
  match a with
  | ⟨0, _⟩ => show win1_2.index t (0 : Fin 2) * 2000 + 1 * y.val = t.val * 2000 + y.val; omega
  | ⟨1, _⟩ => show win1_2.index t (1 : Fin 2) * 1 + 1 * u.val = u.val; omega

/-- What point `t` writes back is block `t` of the head of the layer of the whole arrays. -/
theorem flushed1 (c : Dev nD) (t : Fin cfg1.N) :
    (dat1 V c).flushed 8 t = ((cfg1.win 8).blk t).view.read (Elt Ideal) (G1 V c) := by
  show (cfg1.win 8).cut (grid1.coords t) ((dat1 V c).after 8 t) = _
  rw [after1_8]
  unfold out1_8
  rw [View.canon_unit_zero hz2]
  simp only [View.ld_unit_zero (S := S2000x256) hz2, View.ld_unit_zero (S := S2000x1) hz2,
    View.ld_unit_zero (S := S256x256) hz2, View.ld_unit_zero (S := S256) hz1,
    View.ld_unit_zero (S := S256x349) hz2, View.ld_unit_zero (S := S349) hz1]
  rw [pay1_eq (iblk1 V c 0 t) (iblk1 V c 2 t) (iblk1 V c 1 t) (iblk1 V c 3 t) (iblk1 V c 4 t) (iblk1 V c 5 t)
      (iblk1 V c 6 t) (iblk1 V c 7 t),
    whole3 V c t, whole4 V c t, whole5 V c t, whole6 V c t, whole7 V c t]
  obtain ⟨-, -, -, -, -, -, -, -, -, -, -, -, -, -, e0, e1⟩ := idx1 t
  funext y
  show head (M := 2000) (K := 256) (N := 349)
      (layer (M := 2000) (K := 256) (N := 256) (Ideal.ofBits .f32 0x00000000#32) (iblk1 V c 0 t) (iblk1 V c 1 t) (iblk1 V c 2 t)
        (V c main_arg6 : S256x256.Idx → EReal) (V c main_arg5 : S256x256.Idx → EReal)
        (shapeCast S1x256 (V c main_arg7 : S256.Idx → EReal) Facts₀.shapeCasts_S256_S1x256))
      (V c main_arg8 : S256x349.Idx → EReal)
      (shapeCast S1x349 (V c main_arg9 : S349.Idx → EReal) Facts₀.shapeCasts_S349_S1x349) y
    = G1 V c (((cfg1.win 8).blk t).view.emb y)
  unfold G1 L1
  refine head_rows (M := 100000) (R := 2000) (K := 256) (N := 349) (t.val * 2000) _ _ _ _
    (fun p k hp => layer_rows (M := 100000) (R := 2000) (K := 256) (N := 256) _ (t.val * 2000) _ _ _ _ _ _ _ _ _
      (rows0 V c t) (rows1 V c t) (rows2 V c t) (ix2 p k) (ix2 (⟨t.val * 2000 + p.val, hp⟩ : Fin 100000) k) rfl rfl)
    y _ ?_ ?_
  · show win1_8.index t (0 : Fin 2) * 2000 + 1 * (y 0).val = t.val * 2000 + (y 0).val; omega
  · show win1_8.index t (1 : Fin 2) * 349 + 1 * (y 1).val = (y 1).val; omega

/-- An index is in point `t`'s block iff each coordinate is in the block's range. -/
theorem mem_blk1 (t : Fin cfg1.N) (i : S100000x349.Idx) :
    i ∈ ((cfg1.win 8).blk t).view.set ↔ ∀ a : Fin 2, win1_8.index t a * S2000x349.size a ≤ (i a).val ∧ (i a).val < win1_8.index t a * S2000x349.size a + S2000x349.size a := by
  show i ∈ ((View.whole main_v34).slice (win1_8.rect t)).set ↔ _
  rw [View.set_slice_whole, Rect.mem_set_unit]
  exact Iff.rfl

/-- Row `r` is in the block of point `r / 2000`. -/
theorem cover1 (i : S100000x349.Idx) :
    ∃ t : Fin cfg1.N, (cfg1.win 8).flush t = true ∧ i ∈ ((cfg1.win 8).blk t).view.set := by
  have hi0 : (i 0).val < 100000 := (i 0).isLt
  have hi1 : (i 1).val < 349 := (i 1).isLt
  have hN : grid1.N = 50 := N_1
  have ht : (i 0).val / 2000 < cfg1.N := by show (i 0).val / 2000 < grid1.N; omega
  obtain ⟨-, -, -, -, -, -, -, -, -, -, -, -, -, -, e0, e1⟩ := idx1 ⟨(i 0).val / 2000, ht⟩
  refine ⟨⟨(i 0).val / 2000, ht⟩, flush1_8 _, ?_⟩
  rw [mem_blk1]
  intro a
  match a with
  | ⟨0, _⟩ =>
    show win1_8.index ⟨(i 0).val / 2000, ht⟩ (0 : Fin 2) * 2000 ≤ (i 0).val ∧ (i 0).val < win1_8.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_8.index ⟨(i 0).val / 2000, ht⟩ (1 : Fin 2) * 349 ≤ (i 1).val ∧ (i 1).val < win1_8.index ⟨(i 0).val / 2000, ht⟩ (1 : Fin 2) * 349 + 349
    rw [e1]; omega

/-- The result array of the second kernel ends holding the head of the layer of the arrays the region found. -/
theorem final1 (c : Dev nD) : (dat1 V c).arrAt 8 cfg1.N = G1 V c :=
  (dat1 V c).arrAt_eq_of_cover 8 (G1 V c) (fun t _ => flushed1 V c t) (cover1)

end Cert.Sage.Region1

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«158860_j54863912239768_2_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.SageHost.lean ====
/-
  The host's spelling of a layer and of the head, read as `layer` and `head`.

  On the host the per-node degree is a length-`M` vector. Clamped below by one, it is broadcast to a column and then
  across the features, and the sums of neighbour features are DIVIDED by it, entry by entry. Entry `(p, q)` of that
  quotient is `a (p, q) / max (deg p) 1`. The other spelling computes the reciprocals `1 / max (deg p) 1` once, as
  a vector, reshapes them to a column (`recipCol`) and MULTIPLIES every row by its entry. As the clamped degree is
  never zero the two agree on all extended reals (`divf_degree`).

  With that, the host's two `dot_general`s, the sum with the twice-broadcast bias vector and the maximum with a
  broadcast scalar are one `layer` (`host_layer`); a `dot_general` and the sum with a broadcast bias vector are the
  `head` (`host_head`).
-/
import proofs.«158860_j54863912239768_2_alg».proof.Proof.SageSpec
import proofs.«158860_j54863912239768_2_alg».proof.Proof.LibRowBiasHost
import proofs.«158860_j54863912239768_2_alg».proof.Proof.LibColumns
import Idealize.ShloMosaic.PureOps.IdealRules
import Idealize.ShloMosaic.Lib.Pipeline.Value

noncomputable section

namespace Cert.Sage

open Idealize.ShloMosaic Idealize.ShloMosaic.ValueIdx Cert.LibPlainDot Cert.LibRowBias Cert.Columns

/-- The word of the float one denotes the number one. -/
theorem one_word : Ideal.ofBits .f32 0x3F800000#32 = 1 := IdealRules.sign_bit.ideal_onePat .f32

/-- A vector broadcast to a column and then across `K` columns reads, at `(p, q)`, the vector at `p`. -/
theorem bcastCol_apply {α : Type} {M K : ℕ}
    (h1 : (⟨1, ![M]⟩ : Shape).BroadcastsInDim ⟨2, ![M, 1]⟩ ![0])
    (h2 : (⟨2, ![M, 1]⟩ : Shape).BroadcastsInDim ⟨2, ![M, K]⟩ ![0, 1])
    (x : (⟨1, ![M]⟩ : Shape).Idx → α) (p : Fin M) (q : Fin K) :
    broadcastInDim ⟨2, ![M, K]⟩ ![0, 1] h2 (broadcastInDim ⟨2, ![M, 1]⟩ ![0] h1 x) (ix2 p q) = x (ix1 p) := by
  have hp : p.val = if M = 1 then 0 else p.val := by
    split
    · have := p.isLt; omega
    · rfl
  refine (broadcastInDim_apply ![0, 1] h2 (broadcastInDim ⟨2, ![M, 1]⟩ ![0] h1 x) (ix2 p q) (ix2 p (0 : Fin 1)) (fun a => ?_)).trans ?_
  · match a with
    | ⟨0, _⟩ => show p.val = if M = 1 then 0 else p.val; exact hp
    | ⟨1, _⟩ => show 0 = if (1 : ℕ) = 1 then 0 else q.val; rw [if_pos rfl]
  · refine broadcastInDim_apply ![0] h1 x (ix2 p (0 : Fin 1)) (ix1 p) (fun a => ?_)
    match a with
    | ⟨0, _⟩ => show p.val = if M = 1 then 0 else p.val; exact hp

/-- The degree vector clamped below by the float one. -/
def clampDeg {M : ℕ} (deg : FVec Ideal ⟨1, ![M]⟩ .f32) (h0 : (⟨0, ![]⟩ : Shape).BroadcastsInDim ⟨1, ![M]⟩ ![]) :
    FVec Ideal ⟨1, ![M]⟩ .f32 :=
  maximumf deg (broadcastInDim ⟨1, ![M]⟩ ![] h0 (constant (F := Ideal) ⟨0, ![]⟩ .f32 0x3F800000#32))

theorem clampDeg_apply {M : ℕ} (deg : FVec Ideal ⟨1, ![M]⟩ .f32) (h0 : (⟨0, ![]⟩ : Shape).BroadcastsInDim ⟨1, ![M]⟩ ![])
    (p : Fin M) : clampDeg deg h0 (ix1 p) = max (deg (ix1 p)) 1 := by
  show max (deg (ix1 p)) (Ideal.ofBits .f32 0x3F800000#32) = _
  rw [one_word]

/-- The column of scales: the float one divided by the clamped degree, reshaped to an `[M, 1]` column. -/
def recipCol {M : ℕ} (deg : FVec Ideal ⟨1, ![M]⟩ .f32) (h0 : (⟨0, ![]⟩ : Shape).BroadcastsInDim ⟨1, ![M]⟩ ![])
    (hc : (⟨1, ![M]⟩ : Shape).ShapeCasts ⟨2, ![M, 1]⟩) : (⟨2, ![M, 1]⟩ : Shape).Idx → EReal :=
  shapeCast ⟨2, ![M, 1]⟩
    (Host.divf (F := Ideal) (broadcastInDim ⟨1, ![M]⟩ ![] h0 (constant (F := Ideal) ⟨0, ![]⟩ .f32 0x3F800000#32)) (clampDeg deg h0)) hc

theorem recipCol_apply {M : ℕ} (deg : FVec Ideal ⟨1, ![M]⟩ .f32) (h0 : (⟨0, ![]⟩ : Shape).BroadcastsInDim ⟨1, ![M]⟩ ![])
    (hc : (⟨1, ![M]⟩ : Shape).ShapeCasts ⟨2, ![M, 1]⟩) (p : Fin M) (u : Fin 1) :
    recipCol deg h0 hc (ix2 p u) = Ideal.div 1 (max (deg (ix1 p)) 1) := by
  unfold recipCol
  rw [shapeCast_a_a1_apply]
  show Ideal.div (Ideal.ofBits .f32 0x3F800000#32) (clampDeg deg h0 (ix1 p)) = _
  rw [one_word, clampDeg_apply]

/-- Dividing every row by its clamped degree is scaling every row by the reciprocal column. -/
theorem divf_degree {M K : ℕ} (A : FVec Ideal ⟨2, ![M, K]⟩ .f32) (deg : FVec Ideal ⟨1, ![M]⟩ .f32)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, K]⟩ ![0, 1])
    (hc : (⟨1, ![M]⟩ : Shape).ShapeCasts ⟨2, ![M, 1]⟩) :
    Host.divf (F := Ideal) A (broadcastInDim ⟨2, ![M, K]⟩ ![0, 1] h2 (broadcastInDim ⟨2, ![M, 1]⟩ ![0] h1 (clampDeg deg h0)))
      = scaleRows A (recipCol deg h0 hc) := by
  funext i
  obtain ⟨p, q, rfl⟩ : ∃ (p : Fin M) (q : Fin K), i = ix2 p q :=
    ⟨⟨(i 0).val, idx2_lt0 i⟩, ⟨(i 1).val, idx2_lt1 i⟩, by funext d; match d with | ⟨0, _⟩ => rfl | ⟨1, _⟩ => rfl⟩
  rw [scaleRows_apply, recipCol_apply]
  show Ideal.div (A (ix2 p q))
      (broadcastInDim ⟨2, ![M, K]⟩ ![0, 1] h2 (broadcastInDim ⟨2, ![M, 1]⟩ ![0] h1 (clampDeg deg h0)) (ix2 p q)) = _
  rw [bcastCol_apply, clampDeg_apply]
  exact (mul_div_one _ _ (max_one_ne_zero _)).symm

/-- The host's layer: two `dot_general`s over the plain dimension numbers (the first of the rows divided by their
    clamped degree), their sum, the bias vector broadcast over the rows, the maximum with a broadcast scalar. -/
theorem host_layer {M K N : ℕ} (w : BitVec 32)
    (dd : DotDims ⟨2, ![M, K]⟩ ⟨2, ![K, N]⟩ ⟨2, ![M, N]⟩) (hdd : dd = DotDims.plain M K N)
    (A H : FVec Ideal ⟨2, ![M, K]⟩ .f32) (deg : FVec Ideal ⟨1, ![M]⟩ .f32)
    (Wn Ws : FVec Ideal ⟨2, ![K, N]⟩ .f32) (b : FVec Ideal ⟨1, ![N]⟩ .f32)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, K]⟩ ![0, 1])
    (hc : (⟨1, ![M]⟩ : Shape).ShapeCasts ⟨2, ![M, 1]⟩)
    (g0 : (⟨0, ![]⟩ : Shape).BroadcastsInDim ⟨2, ![M, N]⟩ ![])
    (g1 : (⟨1, ![N]⟩ : Shape).BroadcastsInDim ⟨2, ![1, N]⟩ ![1])
    (g2 : (⟨2, ![1, N]⟩ : Shape).BroadcastsInDim ⟨2, ![M, N]⟩ ![0, 1])
    (gc : (⟨1, ![N]⟩ : Shape).ShapeCasts ⟨2, ![1, N]⟩) :
    maximumf
        (addf
          (addf
            (Host.dotGeneral (F := Ideal) dd none
              (Host.divf (F := Ideal) A
                (broadcastInDim ⟨2, ![M, K]⟩ ![0, 1] h2 (broadcastInDim ⟨2, ![M, 1]⟩ ![0] h1 (clampDeg deg h0)))) Wn)
            (Host.dotGeneral (F := Ideal) dd none H Ws))
          (broadcastInDim ⟨2, ![M, N]⟩ ![0, 1] g2 (broadcastInDim ⟨2, ![1, N]⟩ ![1] g1 b)))
        (broadcastInDim ⟨2, ![M, N]⟩ ![] g0 (constant (F := Ideal) ⟨0, ![]⟩ .f32 w))
      = layer (Ideal.ofBits .f32 w) A H (recipCol deg h0 hc) Wn Ws (shapeCast ⟨2, ![1, N]⟩ b gc) := by
  subst hdd
  rw [max_addf_bcastRow w _ b g0 g1 g2 gc, divf_degree A deg h0 h1 h2 hc]
  show rowBiasFloor _ (addf (FloatOps.dotGeneral (DotDims.plain M K N) none .single (scaleRows A (recipCol deg h0 hc)) Wn)
      (FloatOps.dotGeneral (DotDims.plain M K N) none .single H Ws)) _ = _
  rw [dotGeneral_plain none .single (scaleRows A (recipCol deg h0 hc)) Wn, dotGeneral_plain none .single H Ws]
  rfl

/-- The host's head: a `dot_general` over the plain dimension numbers and the bias vector broadcast over the rows. -/
theorem host_head {M K N : ℕ}
    (dd : DotDims ⟨2, ![M, K]⟩ ⟨2, ![K, N]⟩ ⟨2, ![M, N]⟩) (hdd : dd = DotDims.plain M K N)
    (X : FVec Ideal ⟨2, ![M, K]⟩ .f32) (W : FVec Ideal ⟨2, ![K, N]⟩ .f32) (b : FVec Ideal ⟨1, ![N]⟩ .f32)
    (g1 : (⟨1, ![N]⟩ : Shape).BroadcastsInDim ⟨2, ![1, N]⟩ ![1])
    (g2 : (⟨2, ![1, N]⟩ : Shape).BroadcastsInDim ⟨2, ![M, N]⟩ ![0, 1])
    (gc : (⟨1, ![N]⟩ : Shape).ShapeCasts ⟨2, ![1, N]⟩) :
    addf (Host.dotGeneral (F := Ideal) dd none X W)
        (broadcastInDim ⟨2, ![M, N]⟩ ![0, 1] g2 (broadcastInDim ⟨2, ![1, N]⟩ ![1] g1 b))
      = head X W (shapeCast ⟨2, ![1, N]⟩ b gc) := by
  subst hdd
  rw [addf_bcastRow _ b g1 g2 gc]
  show rowBias (FloatOps.dotGeneral (DotDims.plain M K N) none .single X W) _ = _
  rw [dotGeneral_plain none .single X W]
  rfl

end Cert.Sage

end
-- ==== Proof.SageNet.lean ====
/-
  The whole network as one function of the ten arguments.

  From the edge list `e` (row 0 the sources, row 1 the destinations of 500000 edges) the host computes, once:
  the sources with negative entries wrapped around (`srcIdx`), the destinations (`dstIdx`), the in-degree of every
  node as the scatter-sum of ones (`deg`) and the column of reciprocals of the degrees clamped below by one
  (`dcol`). Aggregating a feature array `h` gathers its rows at the sources and scatter-adds them at the destinations
  (`agg128`, `agg256`). The network is two layers and the head:

      hidden = layer (agg x) x dcol W1n W1s b1        net = head (layer (agg hidden) hidden dcol W2n W2s b2) hW hb

  The gather and scatter dimension numbers (`Recs`) and the shape side conditions the operations cite (`Ev`) are
  parameters: each of the two programs states its own, and the side conditions, being propositions, cannot differ.
  Nothing here is ever computed: the gathers and scatters stay opaque, and both programs apply the same ones.
-/
import proofs.«158860_j54863912239768_2_alg».proof.Proof.SageSpec
import proofs.«158860_j54863912239768_2_alg».proof.Proof.SageHost

noncomputable section

namespace Cert.Sage.Net

open Idealize.ShloMosaic Idealize.ShloMosaic.ValueIdx Cert.Sage

/-- The dimension numbers of the two gathers and the three scatter-adds. -/
structure Recs where
  g128 : GatherDims ⟨2, ![100000, 128]⟩ ⟨2, ![500000, 1]⟩ ⟨2, ![500000, 128]⟩
  s128 : ScatterDims ⟨2, ![100000, 128]⟩ ⟨2, ![500000, 1]⟩ ⟨2, ![500000, 128]⟩
  g256 : GatherDims ⟨2, ![100000, 256]⟩ ⟨2, ![500000, 1]⟩ ⟨2, ![500000, 256]⟩
  s256 : ScatterDims ⟨2, ![100000, 256]⟩ ⟨2, ![500000, 1]⟩ ⟨2, ![500000, 256]⟩
  s1 : ScatterDims ⟨1, ![100000]⟩ ⟨2, ![500000, 1]⟩ ⟨1, ![500000]⟩

/-- The shape side conditions the host operations cite. -/
structure Ev : Prop where
  sl0 : (⟨2, ![2, 500000]⟩ : Shape).Slices ![0, 0] ⟨2, ![1, 500000]⟩
  sl1 : (⟨2, ![2, 500000]⟩ : Shape).Slices ![1, 0] ⟨2, ![1, 500000]⟩
  sc : (⟨2, ![1, 500000]⟩ : Shape).ShapeCasts ⟨1, ![500000]⟩
  bE : (⟨0, ![]⟩ : Shape).BroadcastsInDim ⟨1, ![500000]⟩ (![] : Fin 0 → Fin 1)
  bEc : (⟨1, ![500000]⟩ : Shape).BroadcastsInDim ⟨2, ![500000, 1]⟩ (![0] : Fin 1 → Fin 2)
  bN : (⟨0, ![]⟩ : Shape).BroadcastsInDim ⟨1, ![100000]⟩ (![] : Fin 0 → Fin 1)
  bX : (⟨0, ![]⟩ : Shape).BroadcastsInDim ⟨2, ![100000, 128]⟩ (![] : Fin 0 → Fin 2)
  bH : (⟨0, ![]⟩ : Shape).BroadcastsInDim ⟨2, ![100000, 256]⟩ (![] : Fin 0 → Fin 2)
  cN : (⟨1, ![100000]⟩ : Shape).ShapeCasts ⟨2, ![100000, 1]⟩
  c256 : (⟨1, ![256]⟩ : Shape).ShapeCasts ⟨2, ![1, 256]⟩
  c349 : (⟨1, ![349]⟩ : Shape).ShapeCasts ⟨2, ![1, 349]⟩

variable (R : Recs) (E : Ev)

/-- Row 0 of the edge list: the sources. -/
def src (e : IVec ⟨2, ![2, 500000]⟩ 32) : IVec ⟨1, ![500000]⟩ 32 :=
  shapeCast ⟨1, ![500000]⟩ (extractStridedSlice ⟨2, ![1, 500000]⟩ ![0, 0] e E.sl0) E.sc

/-- Row 1 of the edge list: the destinations. -/
def dst (e : IVec ⟨2, ![2, 500000]⟩ 32) : IVec ⟨1, ![500000]⟩ 32 :=
  shapeCast ⟨1, ![500000]⟩ (extractStridedSlice ⟨2, ![1, 500000]⟩ ![1, 0] e E.sl1) E.sc

/-- The sources as gather indices: a negative source counts from the end. -/
def srcIdx (e : IVec ⟨2, ![2, 500000]⟩ 32) : IVec ⟨2, ![500000, 1]⟩ 32 :=
  broadcastInDim ⟨2, ![500000, 1]⟩ ![0] E.bEc
    (select (cmpi .slt (src E e) (broadcastInDim ⟨1, ![500000]⟩ ![] E.bE (constantI ⟨0, ![]⟩ 32 0#32)))
      (addi (src E e) (broadcastInDim ⟨1, ![500000]⟩ ![] E.bE (constantI ⟨0, ![]⟩ 32 100000#32))) (src E e))

/-- The destinations as scatter indices. -/
def dstIdx (e : IVec ⟨2, ![2, 500000]⟩ 32) : IVec ⟨2, ![500000, 1]⟩ 32 :=
  broadcastInDim ⟨2, ![500000, 1]⟩ ![0] E.bEc (dst E e)

/-- The in-degrees: a one added at every edge's destination. -/
def deg (e : IVec ⟨2, ![2, 500000]⟩ 32) : FVec Ideal ⟨1, ![100000]⟩ .f32 :=
  Host.scatterAdd R.s1 (broadcastInDim ⟨1, ![100000]⟩ ![] E.bN (constant (F := Ideal) ⟨0, ![]⟩ .f32 0x00000000#32)) (dstIdx E e)
    (broadcastInDim ⟨1, ![500000]⟩ ![] E.bE (constant (F := Ideal) ⟨0, ![]⟩ .f32 0x3F800000#32))

/-- The column of scales. -/
def dcol (e : IVec ⟨2, ![2, 500000]⟩ 32) : (⟨2, ![100000, 1]⟩ : Shape).Idx → EReal :=
  recipCol (deg R E e) E.bN E.cN

/-- The sums over incoming edges of the sources' rows, for 128 features. -/
def agg128 (e : IVec ⟨2, ![2, 500000]⟩ 32) (h : FVec Ideal ⟨2, ![100000, 128]⟩ .f32) : FVec Ideal ⟨2, ![100000, 128]⟩ .f32 :=
  Host.scatterAdd R.s128 (broadcastInDim ⟨2, ![100000, 128]⟩ ![] E.bX (constant (F := Ideal) ⟨0, ![]⟩ .f32 0x00000000#32)) (dstIdx E e)
    (Host.gather R.g128 h (srcIdx E e))

/-- The same for 256 features. -/
def agg256 (e : IVec ⟨2, ![2, 500000]⟩ 32) (h : FVec Ideal ⟨2, ![100000, 256]⟩ .f32) : FVec Ideal ⟨2, ![100000, 256]⟩ .f32 :=
  Host.scatterAdd R.s256 (broadcastInDim ⟨2, ![100000, 256]⟩ ![] E.bH (constant (F := Ideal) ⟨0, ![]⟩ .f32 0x00000000#32)) (dstIdx E e)
    (Host.gather R.g256 h (srcIdx E e))

/-- The first layer's result. -/
def hidden (x : FVec Ideal ⟨2, ![100000, 128]⟩ .f32) (e : IVec ⟨2, ![2, 500000]⟩ 32)
    (w1s w1n : FVec Ideal ⟨2, ![128, 256]⟩ .f32) (b1 : FVec Ideal ⟨1, ![256]⟩ .f32) : (⟨2, ![100000, 256]⟩ : Shape).Idx → EReal :=
  layer (M := 100000) (K := 128) (N := 256) (Ideal.ofBits .f32 0x00000000#32) (agg128 R E e x) x (dcol R E e) w1n w1s
    (shapeCast ⟨2, ![1, 256]⟩ b1 E.c256)

/-- The network's result. -/
def net (x : FVec Ideal ⟨2, ![100000, 128]⟩ .f32) (e : IVec ⟨2, ![2, 500000]⟩ 32)
    (w1s w1n : FVec Ideal ⟨2, ![128, 256]⟩ .f32) (b1 : FVec Ideal ⟨1, ![256]⟩ .f32)
    (w2s w2n : FVec Ideal ⟨2, ![256, 256]⟩ .f32) (b2 : FVec Ideal ⟨1, ![256]⟩ .f32)
    (hw : FVec Ideal ⟨2, ![256, 349]⟩ .f32) (hb : FVec Ideal ⟨1, ![349]⟩ .f32) : (⟨2, ![100000, 349]⟩ : Shape).Idx → EReal :=
  head (M := 100000) (K := 256) (N := 349)
    (layer (M := 100000) (K := 256) (N := 256) (Ideal.ofBits .f32 0x00000000#32)
      (agg256 R E e (hidden R E x e w1s w1n b1)) (hidden R E x e w1s w1n b1) (dcol R E e) w2n w2s
      (shapeCast ⟨2, ![1, 256]⟩ b2 E.c256))
    hw (shapeCast ⟨2, ![1, 349]⟩ hb E.c349)

end Cert.Sage.Net

end
-- ==== Proof.KernelValue.lean ====
/-
  The idealized kernel's result is the network of its arguments.

  The buffers' contents are followed through the program's four stretches.
  * After the first host stretch the first kernel's operands hold: the aggregated input features, the input features,
    the column of scales, and three arguments untouched.
  * The first kernel leaves, in its result array, one layer of those: the hidden features (`Net.hidden`).
  * The second host stretch aggregates the hidden features; the sources, the destinations and the column of scales are
    still what the first stretch computed, and the remaining arguments are untouched.
  * The second kernel leaves the head of the layer of those: the network's result (`net`).
-/
import proofs.«158860_j54863912239768_2_alg».proof.Proof.Gen.KernelIdeal.Frame
import proofs.«158860_j54863912239768_2_alg».proof.Proof.KernelValue0
import proofs.«158860_j54863912239768_2_alg».proof.Proof.KernelValue1
import proofs.«158860_j54863912239768_2_alg».proof.Proof.SageNet
import Idealize.ShloMosaic.Lib.StableHlo.Run

set_option maxRecDepth 16384

noncomputable section

namespace Cert.Sage.Kernel

open Cert.KernelIdeal Cert.KernelIdeal.Gen
open Idealize.ShloMosaic Idealize.ShloMosaic.TcCoe Idealize.ShloMosaic.StableHlo
open Idealize.SL Idealize.SL.Sem
open Cert.Sage Cert.Sage.Net

/-- The kernel program's gather and scatter dimension numbers. -/
def recs : Recs where
  g128 := gather_S100000x128_S500000x1_S500000x128_1_0_n_n_0_1_1128
  s128 := scatter_S100000x128_S500000x1_S500000x128_1_0_0_1
  g256 := gather_S100000x256_S500000x1_S500000x256_1_0_n_n_0_1_1256
  s256 := scatter_S100000x256_S500000x1_S500000x256_1_0_0_1
  s1 := scatter_S100000_S500000x1_S500000_n_0_0_1

/-- The shape side conditions, as the kernel program states them. -/
theorem ev : Ev where
  sl0 := Facts₀.slices_S2x500000_S1x500000_0_0
  sl1 := Facts₀.slices_S2x500000_S1x500000_1_0
  sc := Facts₀.shapeCasts_S1x500000_S500000
  bE := Facts₀.bcast_S_S500000
  bEc := Facts₀.bcast_S500000_S500000x1_0
  bN := Facts₀.bcast_S_S100000
  bX := Facts₀.bcast_S_S100000x128
  bH := Facts₀.bcast_S_S100000x256
  cN := Facts₀.shapeCasts_S100000_S100000x1
  c256 := Facts₀.shapeCasts_S256_S1x256
  c349 := Facts₀.shapeCasts_S349_S1x349

variable (m : (ℓ : Loc nD τ sig) → Buf (Elt Ideal) ℓ) (ρ : Dev nD → PrngReg) (c : Dev nD)

/-! ## After the first host stretch -/

theorem v1_src : W1 m ρ c (Proc.devRef .tc main_v1) = src ev (m ((c.tc : Thread nD τ).loc main_arg1)) := by
  show StableHlo.after hostOps0 (W0 m ρ c) (Proc.devRef .tc main_v1) = _
  after_results
  rfl

theorem v1_dst : W1 m ρ c (Proc.devRef .tc main_v3) = dst ev (m ((c.tc : Thread nD τ).loc main_arg1)) := by
  show StableHlo.after hostOps0 (W0 m ρ c) (Proc.devRef .tc main_v3) = _
  after_results
  rfl

theorem v1_12 : V1 m ρ c main_v12 = dcol recs ev (m ((c.tc : Thread nD τ).loc main_arg1)) := by
  show StableHlo.after hostOps0 (W0 m ρ c) (Proc.devRef .tc main_v12) = _
  after_results
  rfl

set_option maxHeartbeats 2000000 in
theorem v1_22 : V1 m ρ c main_v22 = agg128 recs ev (m ((c.tc : Thread nD τ).loc main_arg1)) (m ((c.tc : Thread nD τ).loc main_arg0)) := by
  show StableHlo.after hostOps0 (W0 m ρ c) (Proc.devRef .tc main_v22) = _
  after_results
  unfold agg128 srcIdx dstIdx src dst
  exact rfl

theorem v1_arg0 : V1 m ρ c main_arg0 = (m ((c.tc : Thread nD τ).loc main_arg0)) := by
  show StableHlo.after hostOps0 (W0 m ρ c) (Proc.devRef .tc main_arg0) = _
  after_results
theorem v1_arg2 : V1 m ρ c main_arg2 = (m ((c.tc : Thread nD τ).loc main_arg2)) := by
  show StableHlo.after hostOps0 (W0 m ρ c) (Proc.devRef .tc main_arg2) = _
  after_results
theorem v1_arg3 : V1 m ρ c main_arg3 = (m ((c.tc : Thread nD τ).loc main_arg3)) := by
  show StableHlo.after hostOps0 (W0 m ρ c) (Proc.devRef .tc main_arg3) = _
  after_results
theorem v1_arg4 : V1 m ρ c main_arg4 = (m ((c.tc : Thread nD τ).loc main_arg4)) := by
  show StableHlo.after hostOps0 (W0 m ρ c) (Proc.devRef .tc main_arg4) = _
  after_results
theorem v1_arg5 : W1 m ρ c (Proc.devRef .tc main_arg5) = (m ((c.tc : Thread nD τ).loc main_arg5)) := by
  show StableHlo.after hostOps0 (W0 m ρ c) (Proc.devRef .tc main_arg5) = _
  after_results
theorem v1_arg6 : W1 m ρ c (Proc.devRef .tc main_arg6) = (m ((c.tc : Thread nD τ).loc main_arg6)) := by
  show StableHlo.after hostOps0 (W0 m ρ c) (Proc.devRef .tc main_arg6) = _
  after_results
theorem v1_arg7 : W1 m ρ c (Proc.devRef .tc main_arg7) = (m ((c.tc : Thread nD τ).loc main_arg7)) := by
  show StableHlo.after hostOps0 (W0 m ρ c) (Proc.devRef .tc main_arg7) = _
  after_results
theorem v1_arg8 : W1 m ρ c (Proc.devRef .tc main_arg8) = (m ((c.tc : Thread nD τ).loc main_arg8)) := by
  show StableHlo.after hostOps0 (W0 m ρ c) (Proc.devRef .tc main_arg8) = _
  after_results
theorem v1_arg9 : W1 m ρ c (Proc.devRef .tc main_arg9) = (m ((c.tc : Thread nD τ).loc main_arg9)) := by
  show StableHlo.after hostOps0 (W0 m ρ c) (Proc.devRef .tc main_arg9) = _
  after_results

/-! ## After the first kernel -/

/-- The first kernel's result array holds the hidden features. -/
theorem w2_hidden : W2 m ρ c (Proc.devRef .tc main_v23) = Net.hidden recs ev (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 6).trans ?_
  rw [Region0.final0 (V1 m ρ) c]
  unfold Region0.G0
  rw [v1_22 m ρ c, v1_arg0 m ρ c, v1_12 m ρ c, v1_arg3 m ρ c, v1_arg2 m ρ c, v1_arg4 m ρ c]
  rfl

theorem w2_src : W2 m ρ c (Proc.devRef .tc main_v1) = src ev (m ((c.tc : Thread nD τ).loc main_arg1)) :=
  (W2_of_ne m ρ c main_v1 (by decide)).trans (v1_src m ρ c)
theorem w2_dst : W2 m ρ c (Proc.devRef .tc main_v3) = dst ev (m ((c.tc : Thread nD τ).loc main_arg1)) :=
  (W2_of_ne m ρ c main_v3 (by decide)).trans (v1_dst m ρ c)
theorem w2_12 : W2 m ρ c (Proc.devRef .tc main_v12) = dcol recs ev (m ((c.tc : Thread nD τ).loc main_arg1)) :=
  ((W2_arr m ρ c 2).trans (((dat0 (V1 m ρ) c).arrAt_in 2 rfl _).trans (A_eq0 (V1 m ρ) c 2))).trans (v1_12 m ρ c)
theorem w2_arg5 : W2 m ρ c (Proc.devRef .tc main_arg5) = (m ((c.tc : Thread nD τ).loc main_arg5)) :=
  (W2_of_ne m ρ c main_arg5 (by decide)).trans (v1_arg5 m ρ c)
theorem w2_arg6 : W2 m ρ c (Proc.devRef .tc main_arg6) = (m ((c.tc : Thread nD τ).loc main_arg6)) :=
  (W2_of_ne m ρ c main_arg6 (by decide)).trans (v1_arg6 m ρ c)
theorem w2_arg7 : W2 m ρ c (Proc.devRef .tc main_arg7) = (m ((c.tc : Thread nD τ).loc main_arg7)) :=
  (W2_of_ne m ρ c main_arg7 (by decide)).trans (v1_arg7 m ρ c)
theorem w2_arg8 : W2 m ρ c (Proc.devRef .tc main_arg8) = (m ((c.tc : Thread nD τ).loc main_arg8)) :=
  (W2_of_ne m ρ c main_arg8 (by decide)).trans (v1_arg8 m ρ c)
theorem w2_arg9 : W2 m ρ c (Proc.devRef .tc main_arg9) = (m ((c.tc : Thread nD τ).loc main_arg9)) :=
  (W2_of_ne m ρ c main_arg9 (by decide)).trans (v1_arg9 m ρ c)

/-! ## After the second host stretch -/

theorem v3_33 : V3 m ρ c main_v33 = agg256 recs ev (m ((c.tc : Thread nD τ).loc main_arg1)) (Net.hidden recs ev (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  show StableHlo.after hostOps1 (W2 m ρ c) (Proc.devRef .tc main_v33) = _
  after_results
  rw [w2_hidden m ρ c, w2_src m ρ c, w2_dst m ρ c]
  rfl

theorem v3_23 : V3 m ρ c main_v23 = Net.hidden recs ev (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v23) = _
  after_results
  exact w2_hidden m ρ c
theorem v3_12 : V3 m ρ c main_v12 = dcol recs ev (m ((c.tc : Thread nD τ).loc main_arg1)) := by
  show StableHlo.after hostOps1 (W2 m ρ c) (Proc.devRef .tc main_v12) = _
  after_results
  exact w2_12 m ρ c
theorem v3_arg5 : V3 m ρ c main_arg5 = (m ((c.tc : Thread nD τ).loc main_arg5)) := by
  show StableHlo.after hostOps1 (W2 m ρ c) (Proc.devRef .tc main_arg5) = _
  after_results
  exact w2_arg5 m ρ c
theorem v3_arg6 : V3 m ρ c main_arg6 = (m ((c.tc : Thread nD τ).loc main_arg6)) := by
  show StableHlo.after hostOps1 (W2 m ρ c) (Proc.devRef .tc main_arg6) = _
  after_results
  exact w2_arg6 m ρ c
theorem v3_arg7 : V3 m ρ c main_arg7 = (m ((c.tc : Thread nD τ).loc main_arg7)) := by
  show StableHlo.after hostOps1 (W2 m ρ c) (Proc.devRef .tc main_arg7) = _
  after_results
  exact w2_arg7 m ρ c
theorem v3_arg8 : V3 m ρ c main_arg8 = (m ((c.tc : Thread nD τ).loc main_arg8)) := by
  show StableHlo.after hostOps1 (W2 m ρ c) (Proc.devRef .tc main_arg8) = _
  after_results
  exact w2_arg8 m ρ c
theorem v3_arg9 : V3 m ρ c main_arg9 = (m ((c.tc : Thread nD τ).loc main_arg9)) := by
  show StableHlo.after hostOps1 (W2 m ρ c) (Proc.devRef .tc main_arg9) = _
  after_results
  exact w2_arg9 m ρ c

/-! ## After the second kernel -/

/-- The network at the kernel program's launch contents. -/
def value : S100000x349.Idx → EReal := net recs ev (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- The result buffer at the end of the run holds the network. -/
theorem kernel_value : W4 m ρ c (Proc.devRef .tc main_v34) = value m c := by
  refine (W4_arr m ρ c 8).trans ?_
  rw [Region1.final1 (V3 m ρ) c]
  unfold Region1.G1 Region1.L1
  rw [v3_33 m ρ c, v3_23 m ρ c, v3_12 m ρ c, v3_arg6 m ρ c, v3_arg5 m ρ c, v3_arg7 m ρ c, v3_arg8 m ρ c, v3_arg9 m ρ c]
  rfl

end Cert.Sage.Kernel

end
-- ==== Proof.RefValue.lean ====
/-
  The reference's result is the network of its arguments.

  The reference program is host operations only; its run ends with the result buffer at the operations' composed
  term of the launch contents. That term is: the gathers, scatter-adds and the clamped degree (shared, opaque), and
  around them two layers and the head in the host's spelling — a quotient by the broadcast clamped degree, two
  `dot_general`s, a broadcast bias vector, a rectifier; then a `dot_general` and a broadcast bias vector. Each of the
  three is the specification's `layer` / `head` (`host_layer`, `host_head`), so the whole term is `net`.
-/
import proofs.«158860_j54863912239768_2_alg».proof.Proof.Gen.ReferenceIdeal.Run
import proofs.«158860_j54863912239768_2_alg».proof.Proof.SageNet
import proofs.«158860_j54863912239768_2_alg».proof.Proof.SageHost

set_option maxRecDepth 16384

noncomputable section

namespace Cert.Sage.Ref

open Idealize.ShloMosaic Idealize.ShloMosaic.TcCoe Idealize.SL.Sem
open Cert.ReferenceIdeal Cert.ReferenceIdeal.Value Cert.Sage Cert.Sage.Net

/-- The reference's gather and scatter dimension numbers. -/
def recs : Recs where
  g128 := gather_S100000x128_S500000x1_S500000x128_1_0_n_n_0_1_1128
  s128 := scatter_S100000x128_S500000x1_S500000x128_1_0_0_1
  g256 := gather_S100000x256_S500000x1_S500000x256_1_0_n_n_0_1_1256
  s256 := scatter_S100000x256_S500000x1_S500000x256_1_0_0_1
  s1 := scatter_S100000_S500000x1_S500000_n_0_0_1

/-- The shape side conditions, as the reference states them (three of them it never needs itself). -/
theorem ev : Ev where
  sl0 := Facts₀.slices_S2x500000_S1x500000_0_0
  sl1 := Facts₀.slices_S2x500000_S1x500000_1_0
  sc := Facts₀.shapeCasts_S1x500000_S500000
  bE := Facts₀.bcast_S_S500000
  bEc := Facts₀.bcast_S500000_S500000x1_0
  bN := Facts₀.bcast_S_S100000
  bX := Facts₀.bcast_S_S100000x128
  bH := Facts₀.bcast_S_S100000x256
  cN := by decide
  c256 := by decide
  c349 := by decide

variable (m : (ℓ : Loc nD τ sig) → Buf (Elt Ideal) ℓ) (c : Dev nD)

/-- The network at the reference's launch contents. -/
def value : S100000x349.Idx → EReal :=
  net recs ev (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

set_option maxHeartbeats 2000000 in
/-- The run's composed term is the network. -/
theorem ref_value : (res_main_v59 (F := Ideal) m c : S100000x349.Idx → EReal) = value m c := by
  have h1 := host_layer (M := 100000) (K := 128) (N := 256) 0x00000000#32
    dot_S100000x128_S128x256_S100000x256_1_0_0_1_n_n rfl
    (agg128 recs ev (m ((c.tc : Thread nD τ).loc main_arg1)) (m ((c.tc : Thread nD τ).loc main_arg0)))
    (m ((c.tc : Thread nD τ).loc main_arg0)) (deg recs ev (m ((c.tc : Thread nD τ).loc main_arg1)))
    (m ((c.tc : Thread nD τ).loc main_arg3)) (m ((c.tc : Thread nD τ).loc main_arg2)) (m ((c.tc : Thread nD τ).loc main_arg4))
    ev.bN Facts₀.bcast_S100000_S100000x1_0 Facts₀.bcast_S100000x1_S100000x128_0_1 ev.cN
    Facts₀.bcast_S_S100000x256 Facts₀.bcast_S256_S1x256_1 Facts₀.bcast_S1x256_S100000x256_0_1 ev.c256
  have h2 := host_layer (M := 100000) (K := 256) (N := 256) 0x00000000#32
    dot_S100000x256_S256x256_S100000x256_1_0_0_1_n_n rfl
    (agg256 recs ev (m ((c.tc : Thread nD τ).loc main_arg1))
      (Net.hidden recs ev (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))))
    (Net.hidden recs ev (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
    (deg recs ev (m ((c.tc : Thread nD τ).loc main_arg1)))
    (m ((c.tc : Thread nD τ).loc main_arg6)) (m ((c.tc : Thread nD τ).loc main_arg5)) (m ((c.tc : Thread nD τ).loc main_arg7))
    ev.bN Facts₀.bcast_S100000_S100000x1_0 Facts₀.bcast_S100000x1_S100000x256_0_1 ev.cN
    Facts₀.bcast_S_S100000x256 Facts₀.bcast_S256_S1x256_1 Facts₀.bcast_S1x256_S100000x256_0_1 ev.c256
  have h3 := host_head (M := 100000) (K := 256) (N := 349)
    dot_S100000x256_S256x349_S100000x349_1_0_0_1_n_n rfl
    (layer (M := 100000) (K := 256) (N := 256) (Ideal.ofBits .f32 0x00000000#32)
      (agg256 recs ev (m ((c.tc : Thread nD τ).loc main_arg1))
        (Net.hidden recs ev (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))))
      (Net.hidden recs ev (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)))
      (recipCol (deg recs ev (m ((c.tc : Thread nD τ).loc main_arg1))) ev.bN ev.cN)
      (m ((c.tc : Thread nD τ).loc main_arg6)) (m ((c.tc : Thread nD τ).loc main_arg5))
      (shapeCast ⟨2, ![1, 256]⟩ (m ((c.tc : Thread nD τ).loc main_arg7) : S256.Idx → EReal) ev.c256))
    (m ((c.tc : Thread nD τ).loc main_arg8)) (m ((c.tc : Thread nD τ).loc main_arg9))
    Facts₀.bcast_S349_S1x349_1 Facts₀.bcast_S1x349_S100000x349_0_1 ev.c349
  unfold res_main_v59
  refine Eq.trans ?_ h3
  rw [← h2]
  unfold Net.hidden Net.dcol
  rw [← h1]
  rfl

end Cert.Sage.Ref

end
-- ==== Proof.lean ====
/-
  Two layers of mean aggregation over a graph and a linear head: the tiled kernels against the plain formulation,
  on the extended reals.

  Both programs gather the rows of the node features at every edge's source and add them up at the edge's destination,
  count the in-degree of every node the same way, and clamp it below by one; these host operations are the same in the
  two programs and are never opened. The reference then DIVIDES the aggregated rows by the clamped degree and applies
  `relu (· Wn + h Ws + b)` to whole arrays, twice, and the head `· W + b` once. The kernel program forms the RECIPROCAL
  of the clamped degree once, as a column, and hands it with the aggregated rows to a kernel that works on 2000 rows
  at a time: it multiplies each row by its reciprocal, takes the two matrix products (in a narrower float format, which
  on the extended reals is no change), adds the bias and takes the maximum with zero; the second kernel does the same
  on the hidden features and applies the head before writing back.

  The two agree because
  * `x · (1 / D) = x / D` whenever `D ≠ 0`, infinities included, and a degree clamped below by one is not zero;
  * a matrix-unit product into a zero accumulator and a host `dot_general` are the same sum of products;
  * every entry of a layer depends on its own row of the operands only, so fifty blocks of 2000 rows of the layer of
    blocks are the layer of the whole arrays.
  No finiteness of the inputs is used.

  The frames of the two kernel programs are the generated ones; the reference's is its generated run with the result
  forgotten. The idealized kernel program is the word-level program's own text read on the extended reals: no
  operation was replaced, so there is nothing to preserve.
-/
import proofs.«158860_j54863912239768_2_alg».proof.Defs
import proofs.«158860_j54863912239768_2_alg».proof.Proof.Gen.Kernel
import proofs.«158860_j54863912239768_2_alg».proof.Proof.Gen.Kernel.Skeleton
import proofs.«158860_j54863912239768_2_alg».proof.Proof.Gen.Kernel.Launch
import proofs.«158860_j54863912239768_2_alg».proof.Proof.Gen.Kernel.Points
import proofs.«158860_j54863912239768_2_alg».proof.Proof.Gen.Kernel.Frame
import proofs.«158860_j54863912239768_2_alg».proof.Proof.Gen.KernelIdeal
import proofs.«158860_j54863912239768_2_alg».proof.Proof.Gen.KernelIdeal.Skeleton
import proofs.«158860_j54863912239768_2_alg».proof.Proof.Gen.KernelIdeal.Launch
import proofs.«158860_j54863912239768_2_alg».proof.Proof.Gen.KernelIdeal.Points
import proofs.«158860_j54863912239768_2_alg».proof.Proof.Gen.KernelIdeal.Frame
import proofs.«158860_j54863912239768_2_alg».proof.Proof.Gen.ReferenceIdeal
import proofs.«158860_j54863912239768_2_alg».proof.Proof.Gen.ReferenceIdeal.Run
import proofs.«158860_j54863912239768_2_alg».proof.Proof.Gen.Pre_finite_inputs
import proofs.«158860_j54863912239768_2_alg».proof.Proof.KernelRun
import proofs.«158860_j54863912239768_2_alg».proof.Proof.KernelValue
import proofs.«158860_j54863912239768_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The two programs gather and scatter with the same dimension numbers. -/
theorem recs_eq : Cert.Sage.Ref.recs = Cert.Sage.Kernel.recs := rfl

/-- From memories that agree on the arguments both programs end with the network of the arguments in their result. -/
theorem algebraic : Cert.algebraic_KernelIdeal_ReferenceIdeal := by
  intro m ρ m' ρ' _ hagree
  refine ⟨fun c => Cert.Sage.Kernel.value m c, ?_, ?_⟩
  · exact (θ_run Cert.KernelIdeal.defs _ _).mono
      (fun r h c => ⟨(h c).1.trans (Cert.Sage.Kernel.kernel_value m ρ c), (h c).2⟩)
      (Cert.Sage.KernelRun.run_result m ρ)
  · refine (θ_run Cert.ReferenceIdeal.defs _ _).mono (fun r h c => ⟨(h c).1.trans ?_, (h c).2⟩)
      (Cert.ReferenceIdeal.Value.run (F := Ideal) m' ρ')
    rw [Cert.Sage.Ref.ref_value m' c]
    unfold Cert.Sage.Ref.value Cert.Sage.Kernel.value
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2, recs_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
